-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x256 : Shape := ⟨3, ![4096, 49, 256]⟩
abbrev S64x49x49 : Shape := ⟨3, ![64, 49, 49]⟩
abbrev S256x256 : Shape := ⟨2, ![256, 256]⟩
abbrev S169x8 : Shape := ⟨2, ![169, 8]⟩
abbrev S49x49 : Shape := ⟨2, ![49, 49]⟩
abbrev S_ : Shape := ⟨0, ![]⟩

class Facts : Prop where
  bcast_S_S4096x49x256 : S_.BroadcastsInDim S4096x49x256 (![] : Fin 0 → Fin S4096x49x256.rank)
  reducesTo_S4096x49x256_S_d0_1_2 : S4096x49x256.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S256x256 : S_.BroadcastsInDim S256x256 (![] : Fin 0 → Fin S256x256.rank)
  reducesTo_S256x256_S_d0_1 : S256x256.ReducesTo [0, 1] S_
  bcast_S_S169x8 : S_.BroadcastsInDim S169x8 (![] : Fin 0 → Fin S169x8.rank)
  reducesTo_S169x8_S_d0_1 : S169x8.ReducesTo [0, 1] S_

variable [Facts]

def fn_part1 {F : FTy → Type} [FloatOps F] (main_arg4 : FVec F S256x256 .f32) (main_arg5 : FVec F S256x256 .f32) (main_arg6 : FVec F S169x8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S169x8 .f32 := Host.absf main_arg6
  let main_cst_10 : FVec F S_ .f32 := constant S_ .f32 0x7F800000#32
  let main_v30 : FVec F S169x8 .f32 := broadcastInDim S169x8 ![] bcast_S_S169x8 main_cst_10
  let main_v31 : IVec S169x8 1 := cmpf .olt main_v29 main_v30
  let main_c_11 : IVec S_ 1 := constantI S_ 1 1#1
  let main_v32 : IVec S_ 1 := (fun x v => Host.reduce IntOp.andi x v reducesTo_S169x8_S_d0_1 h_S_) main_v31 main_c_11
  let main_v33 : IVec S_ 1 := andi main_v28 main_v32
  main_v33

def fn {F : FTy → Type} [FloatOps F] (main_arg0 : FVec F S4096x49x256 .f32) (main_arg1 : FVec F S64x49x49 .f32) (main_arg2 : FVec F S256x256 .f32) (main_arg3 : FVec F S256x256 .f32) (main_arg4 : FVec F S256x256 .f32) (main_arg5 : FVec F S256x256 .f32) (main_arg6 : FVec F S169x8 .f32) (main_arg7 : IVec S49x49 32) : IVec S_ 1 :=
  let main_v0 : FVec F S4096x49x256 .f32 := Host.absf main_arg0
  let main_cst : FVec F S_ .f32 := constant S_ .f32 0x7F800000#32
  let main_v1 : FVec F S4096x49x256 .f32 := broadcastInDim S4096x49x256 ![] bcast_S_S4096x49x256 main_cst
  let main_v2 : IVec S4096x49x256 1 := cmpf .olt main_v0 main_v1
  let main_c : IVec S_ 1 := constantI S_ 1 1#1
  let main_v3 : IVec S_ 1 := (fun x v => Host.reduce IntOp.andi x v reducesTo_S4096x49x256_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4096x49x256 : Shape := ⟨3, ![4096, 49, 256]⟩
abbrev S64x49x49 : Shape := ⟨3, ![64, 49, 49]⟩
abbrev S256x256 : Shape := ⟨2, ![256, 256]⟩
abbrev S169x8 : Shape := ⟨2, ![169, 8]⟩
abbrev S49x49 : Shape := ⟨2, ![49, 49]⟩
abbrev S2401 : Shape := ⟨1, ![2401]⟩
abbrev S_ : Shape := ⟨0, ![]⟩
abbrev S2401x1 : Shape := ⟨2, ![2401, 1]⟩
abbrev S2401x8 : Shape := ⟨2, ![2401, 8]⟩
abbrev S49x49x8 : Shape := ⟨3, ![49, 49, 8]⟩
abbrev S8x49x49 : Shape := ⟨3, ![8, 49, 49]⟩
abbrev S32x49x256 : Shape := ⟨3, ![32, 49, 256]⟩
abbrev S1568x256 : Shape := ⟨2, ![1568, 256]⟩
abbrev S32x49x8x32 : Shape := ⟨4, ![32, 49, 8, 32]⟩
abbrev S32x8x49x32 : Shape := ⟨4, ![32, 8, 49, 32]⟩
abbrev S256x49x32 : Shape := ⟨3, ![256, 49, 32]⟩
abbrev S256x49x49 : Shape := ⟨3, ![256, 49, 49]⟩
abbrev S32x8x49x49 : Shape := ⟨4, ![32, 8, 49, 49]⟩
abbrev S32x49x49 : Shape := ⟨3, ![32, 49, 49]⟩
abbrev S1x8x49x49 : Shape := ⟨4, ![1, 8, 49, 49]⟩
abbrev S32x1x49x49 : Shape := ⟨4, ![32, 1, 49, 49]⟩
abbrev S256x49 : Shape := ⟨2, ![256, 49]⟩
abbrev S256x49x1 : Shape := ⟨3, ![256, 49, 1]⟩

abbrev nBuf : Space → Nat
  | .hbm => 21
  | .vmem => 10
  | .smem => 0
  | _ => 0

abbrev bufTy : (tb : Table) → Fin (tcTables nBuf tb) → BufTy
  | .hbm, ⟨0, _⟩ => ⟨S4096x49x256, .f32⟩
  | .hbm, ⟨1, _⟩ => ⟨S64x49x49, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S169x8, .f32⟩
  | .hbm, ⟨7, _⟩ => ⟨S49x49, .i32⟩
  | .hbm, ⟨8, _⟩ => ⟨S2401, .i32⟩
  | .hbm, ⟨9, _⟩ => ⟨S_, .i32⟩
  | .hbm, ⟨10, _⟩ => ⟨S2401, .i32⟩
  | .hbm, ⟨11, _⟩ => ⟨S2401, .i1⟩
  | .hbm, ⟨12, _⟩ => ⟨S_, .i32⟩
  | .hbm, ⟨13, _⟩ => ⟨S2401, .i32⟩
  | .hbm, ⟨14, _⟩ => ⟨S2401, .i32⟩
  | .hbm, ⟨15, _⟩ => ⟨S2401, .i32⟩
  | .hbm, ⟨16, _⟩ => ⟨S2401x1, .i32⟩
  | .hbm, ⟨17, _⟩ => ⟨S2401x8, .f32⟩
  | .hbm, ⟨18, _⟩ => ⟨S49x49x8, .f32⟩
  | .hbm, ⟨19, _⟩ => ⟨S8x49x49, .f32⟩
  | .hbm, ⟨20, _⟩ => ⟨S4096x49x256, .f32⟩
  | .local _ .vmem, ⟨0, _⟩ => ⟨S32x49x256, .f32⟩
  | .local _ .vmem, ⟨1, _⟩ => ⟨S32x49x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x49x49, .f32⟩
  | .local _ .vmem, ⟨7, _⟩ => ⟨S64x49x49, .f32⟩
  | .local _ .vmem, ⟨8, _⟩ => ⟨S32x49x256, .f32⟩
  | .local _ .vmem, ⟨9, _⟩ => ⟨S32x49x256, .f32⟩
  | _, _ => ⟨S4096x49x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c2_i32 : BitVec 32 := 2#32
  let c0_i32 : BitVec 32 := 0#32
  let v26 : BitVec 1 := Scalar.cmpi .eq c2_i32 c0_i32
  let c1_i32 : BitVec 32 := 1#32
  let v27 : BitVec 32 := Scalar.select v26 c1_i32 c2_i32
  let v28 : BitVec 32 := Scalar.remsi arg0 v27
  let c0_i32_14 : BitVec 32 := 0#32
  let v30 : BitVec 1 := Scalar.cmpi .slt v28 c0_i32_14
  let c0_i32_15 : BitVec 32 := 0#32
  let v31 : BitVec 1 := Scalar.cmpi .slt v27 c0_i32_15
  let v32 : BitVec 1 := Scalar.xori v30 v31
  let c0_i32_13 : BitVec 32 := 0#32
  let v29 : BitVec 1 := Scalar.cmpi .ne v28 c0_i32_13
  let v33 : BitVec 1 := Scalar.andi v32 v29
  let v34 : BitVec 32 := Scalar.addi v28 v27
  let v35 : BitVec 32 := Scalar.select v33 v34 v28
  let c32_i32 : BitVec 32 := 32#32
  let v36 : BitVec 32 := Scalar.muli v35 c32_i32
  v36
def k0_off1 (i : grid0.Coords) : Fin 3 → Nat :=
  let arg0 : BitVec 32 := BitVec.ofNat 32 (i 0).val
  let c2_i32 : BitVec 32 := 2#32
  let c0_i32 : BitVec 32 := 0#32
  let v26 : BitVec 1 := Scalar.cmpi .eq c2_i32 c0_i32
  let c1_i32 : BitVec 32 := 1#32
  let v27 : BitVec 32 := Scalar.select v26 c1_i32 c2_i32
  let v28 : BitVec 32 := Scalar.remsi arg0 v27
  let c0_i32_14 : BitVec 32 := 0#32
  let v30 : BitVec 1 := Scalar.cmpi .slt v28 c0_i32_14
  let c0_i32_15 : BitVec 32 := 0#32
  let v31 : BitVec 1 := Scalar.cmpi .slt v27 c0_i32_15
  let v32 : BitVec 1 := Scalar.xori v30 v31
  let c0_i32_13 : BitVec 32 := 0#32
  let v29 : BitVec 1 := Scalar.cmpi .ne v28 c0_i32_13
  let v33 : BitVec 1 := Scalar.andi v32 v29
  let v34 : BitVec 32 := Scalar.addi v28 v27
  let v35 : BitVec 32 := Scalar.select v33 v34 v28
  let c32_i32 : BitVec 32 := 32#32
  let v36 : BitVec 32 := Scalar.muli v35 c32_i32
  let v37 : BitVec 32 := v36
  let v38 : Index := Scalar.indexCast v37
  let c0_16 : Index := 0#32
  let c0_17 : Index := 0#32
  ![v38.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x49x49 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x49x49 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x49x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x8_S49x49x8 : S2401x8.ShapeCasts S49x49x8
  transposes_S49x49x8_S8x49x49_2_0_1 : S49x49x8.Transposes [2, 0, 1] S8x49x49
  inb_S32x49x256_S32x49x256_0_0_0 : ∀ a, (![0, 0, 0] : Fin 3 → Nat) a + S32x49x256.size a ≤ S32x49x256.size a
  h_S32x49x256 : 0 < S32x49x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S32x49x256_S1568x256 : S32x49x256.ShapeCasts S1568x256
  shapeCasts_S1568x256_S32x49x8x32 : S1568x256.ShapeCasts S32x49x8x32
  transposes_S32x49x8x32_p0_2_1_3_S32x8x49x32 : S32x49x8x32.Transposes [0, 2, 1, 3] S32x8x49x32
  shapeCasts_S32x8x49x32_S256x49x32 : S32x8x49x32.ShapeCasts S256x49x32
  shapeCasts_S256x49x49_S32x8x49x49 : S256x49x49.ShapeCasts S32x8x49x49
  h_S32x49x49 : 0 < S32x49x49.numel
  inb_S8x49x49_S8x49x49_0_0_0 : ∀ a, (![0, 0, 0] : Fin 3 → Nat) a + S8x49x49.size a ≤ S8x49x49.size a
  h_S8x49x49 : 0 < S8x49x49.numel
  shapeCasts_S8x49x49_S8x49x49 : S8x49x49.ShapeCasts S8x49x49
  shapeCasts_S8x49x49_S1x8x49x49 : S8x49x49.ShapeCasts S1x8x49x49
  broadcasts_S1x8x49x49_S32x8x49x49 : S1x8x49x49.Broadcasts S32x8x49x49
  shapeCasts_S32x49x49_S32x1x49x49 : S32x49x49.ShapeCasts S32x1x49x49
  broadcasts_S32x1x49x49_S32x8x49x49 : S32x1x49x49.Broadcasts S32x8x49x49
  shapeCasts_S32x8x49x49_S256x49x49 : S32x8x49x49.ShapeCasts S256x49x49
  reduces_S256x49x49_S256x49 : S256x49x49.Reduces [2] S256x49
  shapeCasts_S256x49_S256x49x1 : S256x49.ShapeCasts S256x49x1
  broadcasts_S256x49x1_S256x49x49 : S256x49x1.Broadcasts S256x49x49
  shapeCasts_S256x49x32_S32x8x49x32 : S256x49x32.ShapeCasts S32x8x49x32
  transposes_S32x8x49x32_p0_2_1_3_S32x49x8x32 : S32x8x49x32.Transposes [0, 2, 1, 3] S32x49x8x32
  shapeCasts_S32x49x8x32_S1568x256 : S32x49x8x32.ShapeCasts S1568x256
  shapeCasts_S1568x256_S32x49x256 : S1568x256.ShapeCasts S32x49x256
  gather_S169x8_S2401x1_S2401x8_1_0_n_n_0_1_18_wf : GatherDims.WF S169x8 S2401x1 S2401x8 [1] [0] [] [0] [] 1 ![1, 8]
  dot_S1568x256_S256x256_S1568x256_1_0_0_1_n_n_wf : DotDims.WF S1568x256 S256x256 S1568x256 [1] [0] [0] [1] [] []
  dot_S256x49x32_S256x49x32_S256x49x49_2_2_1_1_0_0_wf : DotDims.WF S256x49x32 S256x49x32 S256x49x49 [2] [2] [1] [1] [0] [0]
  dot_S256x49x49_S256x49x32_S256x49x32_2_1_1_2_0_0_wf : DotDims.WF S256x49x49 S256x49x32 S256x49x32 [2] [1] [1] [2] [0] [0]
  hrank0 : 0 < grid0.rank
  k0_mult1_dvd : ∀ i : grid0.Coords, 32 ∣ (k0_mult1 i).toNat
  k0_off1_inb : ∀ i : grid0.Coords, ∀ a, (k0_off1 i) a + S32x49x49.size a ≤ S64x49x49.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x256.size a ≤ S4096x49x256.size a
  hwx0_0 : ∀ i : grid0.Coords, EltTy.bits .f32 = 32 ∨ (Rect.block (s := S4096x49x256) S32x49x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x49x49.size a ≤ S8x49x49.size a
  hwx0_5 : ∀ i : grid0.Coords, EltTy.bits .f32 = 32 ∨ (Rect.block (s := S8x49x49) S8x49x49.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x49x49.size a ≤ S64x49x49.size a
  hwx0_6 : ∀ i : grid0.Coords, EltTy.bits .f32 = 32 ∨ (Rect.block (s := S64x49x49) S64x49x49.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x49x256.size a ≤ S4096x49x256.size a
  hwx0_7 : ∀ i : grid0.Coords, EltTy.bits .f32 = 32 ∨ (Rect.block (s := S4096x49x256) S32x49x256.size (cc0_transform_7 i) (hinb0_7 i)).WholeWords (EltTy.packing .f32)

variable [Facts₀]

def gather_S169x8_S2401x1_S2401x8_1_0_n_n_0_1_18 : GatherDims S169x8 S2401x1 S2401x8 where
  offsetDims := [1]
  collapsedSliceDims := [0]
  operandBatchingDims := []
  startIndicesBatchingDims := []
  startIndexMap := [0]
  indexVectorDim := 1
  sliceSizes := ![1, 8]
  wf := gather_S169x8_S2401x1_S2401x8_1_0_n_n_0_1_18_wf
def dot_S1568x256_S256x256_S1568x256_1_0_0_1_n_n : DotDims S1568x256 S256x256 S1568x256 where
  lhsContracting := [1]
  rhsContracting := [0]
  lhsNonContracting := [0]
  rhsNonContracting := [1]
  lhsBatch := []
  rhsBatch := []
  wf := dot_S1568x256_S256x256_S1568x256_1_0_0_1_n_n_wf
def dot_S256x49x32_S256x49x32_S256x49x49_2_2_1_1_0_0 : DotDims S256x49x32 S256x49x32 S256x49x49 where
  lhsContracting := [2]
  rhsContracting := [2]
  lhsNonContracting := [1]
  rhsNonContracting := [1]
  lhsBatch := [0]
  rhsBatch := [0]
  wf := dot_S256x49x32_S256x49x32_S256x49x49_2_2_1_1_0_0_wf
def dot_S256x49x49_S256x49x32_S256x49x32_2_1_1_2_0_0 : DotDims S256x49x49 S256x49x32 S256x49x32 where
  lhsContracting := [2]
  rhsContracting := [1]
  lhsNonContracting := [1]
  rhsNonContracting := [2]
  lhsBatch := [0]
  rhsBatch := [0]
  wf := dot_S256x49x49_S256x49x32_S256x49x32_2_1_1_2_0_0_wf

abbrev win0_0 : Pipeline.Window sig grid0 :=
  Pipeline.Window.ofSpec (Memref.whole main_arg0) S32x49x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S8x49x49.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S64x49x49.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S32x49x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x49x256 : Shape := ⟨3, ![4096, 49, 256]⟩
abbrev S64x49x49 : Shape := ⟨3, ![64, 49, 49]⟩
abbrev S256x256 : Shape := ⟨2, ![256, 256]⟩
abbrev S169x8 : Shape := ⟨2, ![169, 8]⟩
abbrev S49x49 : Shape := ⟨2, ![49, 49]⟩
abbrev S4096x49x8x32 : Shape := ⟨4, ![4096, 49, 8, 32]⟩
abbrev S4096x8x49x32 : Shape := ⟨4, ![4096, 8, 49, 32]⟩
abbrev S4096x8x49x49 : Shape := ⟨4, ![4096, 8, 49, 49]⟩
abbrev S2401 : Shape := ⟨1, ![2401]⟩
abbrev S_ : Shape := ⟨0, ![]⟩
abbrev S2401x1 : Shape := ⟨2, ![2401, 1]⟩
abbrev S2401x8 : Shape := ⟨2, ![2401, 8]⟩
abbrev S49x49x8 : Shape := ⟨3, ![49, 49, 8]⟩
abbrev S8x49x49 : Shape := ⟨3, ![8, 49, 49]⟩
abbrev S1x8x49x49 : Shape := ⟨4, ![1, 8, 49, 49]⟩
abbrev S64x64x8x49x49 : Shape := ⟨5, ![64, 64, 8, 49, 49]⟩
abbrev S1x64x1x49x49 : Shape := ⟨5, ![1, 64, 1, 49, 49]⟩
abbrev S4096x8x49 : Shape := ⟨3, ![4096, 8, 49]⟩
abbrev S4096x8x49x1 : Shape := ⟨4, ![4096, 8, 49, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x49x256, .f32⟩
  | .hbm, ⟨1, _⟩ => ⟨S64x49x49, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S169x8, .f32⟩
  | .hbm, ⟨7, _⟩ => ⟨S49x49, .i32⟩
  | .hbm, ⟨8, _⟩ => ⟨S4096x49x256, .f32⟩
  | .hbm, ⟨9, _⟩ => ⟨S4096x49x8x32, .f32⟩
  | .hbm, ⟨10, _⟩ => ⟨S4096x8x49x32, .f32⟩
  | .hbm, ⟨11, _⟩ => ⟨S4096x49x256, .f32⟩
  | .hbm, ⟨12, _⟩ => ⟨S4096x49x8x32, .f32⟩
  | .hbm, ⟨13, _⟩ => ⟨S4096x8x49x32, .f32⟩
  | .hbm, ⟨14, _⟩ => ⟨S4096x49x256, .f32⟩
  | .hbm, ⟨15, _⟩ => ⟨S4096x49x8x32, .f32⟩
  | .hbm, ⟨16, _⟩ => ⟨S4096x8x49x32, .f32⟩
  | .hbm, ⟨17, _⟩ => ⟨S4096x8x49x49, .f32⟩
  | .hbm, ⟨18, _⟩ => ⟨S2401, .i32⟩
  | .hbm, ⟨19, _⟩ => ⟨S_, .i32⟩
  | .hbm, ⟨20, _⟩ => ⟨S2401, .i32⟩
  | .hbm, ⟨21, _⟩ => ⟨S2401, .i1⟩
  | .hbm, ⟨22, _⟩ => ⟨S_, .i32⟩
  | .hbm, ⟨23, _⟩ => ⟨S2401, .i32⟩
  | .hbm, ⟨24, _⟩ => ⟨S2401, .i32⟩
  | .hbm, ⟨25, _⟩ => ⟨S2401, .i32⟩
  | .hbm, ⟨26, _⟩ => ⟨S2401x1, .i32⟩
  | .hbm, ⟨27, _⟩ => ⟨S2401x8, .f32⟩
  | .hbm, ⟨28, _⟩ => ⟨S49x49x8, .f32⟩
  | .hbm, ⟨29, _⟩ => ⟨S8x49x49, .f32⟩
  | .hbm, ⟨30, _⟩ => ⟨S1x8x49x49, .f32⟩
  | .hbm, ⟨31, _⟩ => ⟨S4096x8x49x49, .f32⟩
  | .hbm, ⟨32, _⟩ => ⟨S4096x8x49x49, .f32⟩
  | .hbm, ⟨33, _⟩ => ⟨S64x64x8x49x49, .f32⟩
  | .hbm, ⟨34, _⟩ => ⟨S1x64x1x49x49, .f32⟩
  | .hbm, ⟨35, _⟩ => ⟨S64x64x8x49x49, .f32⟩
  | .hbm, ⟨36, _⟩ => ⟨S64x64x8x49x49, .f32⟩
  | .hbm, ⟨37, _⟩ => ⟨S4096x8x49x49, .f32⟩
  | .hbm, ⟨38, _⟩ => ⟨S_, .f32⟩
  | .hbm, ⟨39, _⟩ => ⟨S4096x8x49, .f32⟩
  | .hbm, ⟨40, _⟩ => ⟨S_, .f32⟩
  | .hbm, ⟨41, _⟩ => ⟨S4096x8x49, .f32⟩
  | .hbm, ⟨42, _⟩ => ⟨S4096x8x49, .f32⟩
  | .hbm, ⟨43, _⟩ => ⟨S4096x8x49x1, .f32⟩
  | .hbm, ⟨44, _⟩ => ⟨S4096x8x49x49, .f32⟩
  | .hbm, ⟨45, _⟩ => ⟨S4096x8x49x49, .f32⟩
  | .hbm, ⟨46, _⟩ => ⟨S4096x8x49x49, .f32⟩
  | .hbm, ⟨47, _⟩ => ⟨S_, .f32⟩
  | .hbm, ⟨48, _⟩ => ⟨S4096x8x49, .f32⟩
  | .hbm, ⟨49, _⟩ => ⟨S4096x8x49x1, .f32⟩
  | .hbm, ⟨50, _⟩ => ⟨S4096x8x49x49, .f32⟩
  | .hbm, ⟨51, _⟩ => ⟨S4096x8x49x49, .f32⟩
  | .hbm, ⟨52, _⟩ => ⟨S4096x8x49x32, .f32⟩
  | .hbm, ⟨53, _⟩ => ⟨S4096x49x8x32, .f32⟩
  | .hbm, ⟨54, _⟩ => ⟨S4096x49x256, .f32⟩
  | .hbm, ⟨55, _⟩ => ⟨S4096x49x256, .f32⟩
  | _, _ => ⟨S4096x49x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  shapeCasts_S4096x49x256_S4096x49x8x32 : S4096x49x256.ShapeCasts S4096x49x8x32
  transposes_S4096x49x8x32_S4096x8x49x32_0_2_1_3 : S4096x49x8x32.Transposes [0, 2, 1, 3] S4096x8x49x32
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x8_S49x49x8 : S2401x8.ShapeCasts S49x49x8
  transposes_S49x49x8_S8x49x49_2_0_1 : S49x49x8.Transposes [2, 0, 1] S8x49x49
  bcast_S8x49x49_S1x8x49x49_1_2_3 : S8x49x49.BroadcastsInDim S1x8x49x49 (![1, 2, 3] : Fin 3 → Fin S1x8x49x49.rank)
  bcast_S1x8x49x49_S4096x8x49x49_0_1_2_3 : S1x8x49x49.BroadcastsInDim S4096x8x49x49 (![0, 1, 2, 3] : Fin 4 → Fin S4096x8x49x49.rank)
  shapeCasts_S4096x8x49x49_S64x64x8x49x49 : S4096x8x49x49.ShapeCasts S64x64x8x49x49
  bcast_S64x49x49_S1x64x1x49x49_1_3_4 : S64x49x49.BroadcastsInDim S1x64x1x49x49 (![1, 3, 4] : Fin 3 → Fin S1x64x1x49x49.rank)
  bcast_S1x64x1x49x49_S64x64x8x49x49_0_1_2_3_4 : S1x64x1x49x49.BroadcastsInDim S64x64x8x49x49 (![0, 1, 2, 3, 4] : Fin 5 → Fin S64x64x8x49x49.rank)
  shapeCasts_S64x64x8x49x49_S4096x8x49x49 : S64x64x8x49x49.ShapeCasts S4096x8x49x49
  reducesTo_S4096x8x49x49_S4096x8x49_d3 : S4096x8x49x49.ReducesTo [3] S4096x8x49
  h_S_ : 0 < S_.numel
  bcast_S_S4096x8x49 : S_.BroadcastsInDim S4096x8x49 (![] : Fin 0 → Fin S4096x8x49.rank)
  bcast_S4096x8x49_S4096x8x49x1_0_1_2 : S4096x8x49.BroadcastsInDim S4096x8x49x1 (![0, 1, 2] : Fin 3 → Fin S4096x8x49x1.rank)
  bcast_S4096x8x49x1_S4096x8x49x49_0_1_2_3 : S4096x8x49x1.BroadcastsInDim S4096x8x49x49 (![0, 1, 2, 3] : Fin 4 → Fin S4096x8x49x49.rank)
  transposes_S4096x8x49x32_S4096x49x8x32_0_2_1_3 : S4096x8x49x32.Transposes [0, 2, 1, 3] S4096x49x8x32
  shapeCasts_S4096x49x8x32_S4096x49x256 : S4096x49x8x32.ShapeCasts S4096x49x256
  dot_S4096x49x256_S256x256_S4096x49x256_2_0_01_1_n_n_wf : DotDims.WF S4096x49x256 S256x256 S4096x49x256 [2] [0] [0, 1] [1] [] []
  dot_S4096x8x49x32_S4096x8x49x32_S4096x8x49x49_3_3_2_2_01_01_wf : DotDims.WF S4096x8x49x32 S4096x8x49x32 S4096x8x49x49 [3] [3] [2] [2] [0, 1] [0, 1]
  gather_S169x8_S2401x1_S2401x8_1_0_n_n_0_1_18_wf : GatherDims.WF S169x8 S2401x1 S2401x8 [1] [0] [] [0] [] 1 ![1, 8]
  dot_S4096x8x49x49_S4096x8x49x32_S4096x8x49x32_3_2_2_3_01_01_wf : DotDims.WF S4096x8x49x49 S4096x8x49x32 S4096x8x49x32 [3] [2] [2] [3] [0, 1] [0, 1]

variable [Facts₀]

def dot_S4096x49x256_S256x256_S4096x49x256_2_0_01_1_n_n : DotDims S4096x49x256 S256x256 S4096x49x256 where
  lhsContracting := [2]
  rhsContracting := [0]
  lhsNonContracting := [0, 1]
  rhsNonContracting := [1]
  lhsBatch := []
  rhsBatch := []
  wf := dot_S4096x49x256_S256x256_S4096x49x256_2_0_01_1_n_n_wf
def dot_S4096x8x49x32_S4096x8x49x32_S4096x8x49x49_3_3_2_2_01_01 : DotDims S4096x8x49x32 S4096x8x49x32 S4096x8x49x49 where
  lhsContracting := [3]
  rhsContracting := [3]
  lhsNonContracting := [2]
  rhsNonContracting := [2]
  lhsBatch := [0, 1]
  rhsBatch := [0, 1]
  wf := dot_S4096x8x49x32_S4096x8x49x32_S4096x8x49x49_3_3_2_2_01_01_wf
def gather_S169x8_S2401x1_S2401x8_1_0_n_n_0_1_18 : GatherDims S169x8 S2401x1 S2401x8 where
  offsetDims := [1]
  collapsedSliceDims := [0]
  operandBatchingDims := []
  startIndicesBatchingDims := []
  startIndexMap := [0]
  indexVectorDim := 1
  sliceSizes := ![1, 8]
  wf := gather_S169x8_S2401x1_S2401x8_1_0_n_n_0_1_18_wf
def dot_S4096x8x49x49_S4096x8x49x32_S4096x8x49x32_3_2_2_3_01_01 : DotDims S4096x8x49x49 S4096x8x49x32 S4096x8x49x32 where
  lhsContracting := [3]
  rhsContracting := [2]
  lhsNonContracting := [2]
  rhsNonContracting := [3]
  lhsBatch := [0, 1]
  rhsBatch := [0, 1]
  wf := dot_S4096x8x49x49_S4096x8x49x32_S4096x8x49x32_3_2_2_3_01_01_wf

class Facts : Prop extends Facts₀ where

variable [Facts]
-- ==== Proof.Spec.lean ====
/-
  Windowed multi-head attention, one window at a time, over the extended reals.

  A window holds 49 tokens of 256 channels; the 256 channels are 8 heads of 32 lanes, channel
  `32 h + d` being lane `d` of head `h`. For a window `X` and weights `wq wk wv wo`:

    Q l h d   = Σ_c X l c · wq c (32 h + d)            (likewise K, V)
    S h q k   = Σ_d Q q h d · K k h d + B h q k + M q k   (B the position bias, M the window's mask)
    A h q k   = exp (S h q k − max_k' S h q k') / Σ_k' exp (S h q k' − max_k'' S h q k'')
    O q h d   = Σ_k A h q k · V k h d
    out l e   = Σ_c O l (c / 32) (c % 32) · wo c e.

  Both programs compute exactly this expression, sum by sum; no law beyond reading each sum over the
  same index set is needed, so nothing here asks the entries to be finite.
-/
import Idealize.ShloMosaic.Lib.ValueIdx
import Idealize.ShloMosaic.PureOps.Ideal.Laws

noncomputable section

namespace WinAttn

open Idealize.ShloMosaic

/-- Channel `32 h + d`: lane `d` of head `h`. -/
def chan (h : Fin 8) (d : Fin 32) : Fin 256 := ⟨h.val * 32 + d.val, by have := h.isLt; have := d.isLt; omega⟩
/-- The head of a channel. -/
def headOf (c : Fin 256) : Fin 8 := ⟨c.val / 32, by have := c.isLt; omega⟩
/-- The lane of a channel. -/
def laneOf (c : Fin 256) : Fin 32 := ⟨c.val % 32, by omega⟩

theorem chan_val (h : Fin 8) (d : Fin 32) : (chan h d).val = h.val * 32 + d.val := rfl
theorem headOf_val (c : Fin 256) : (headOf c).val = c.val / 32 := rfl
theorem laneOf_val (c : Fin 256) : (laneOf c).val = c.val % 32 := rfl

/-- The least extended real, as the f32 word both programs start their maxima from. -/
abbrev negInf : EReal := Ideal.ofBits .f32 0xFF800000#32

theorem max_negInf (y : EReal) : max negInf y = y := by
  show max (Ideal.ofBits .f32 0xFF800000#32) y = y
  simp [Ideal.ofBits, Ideal.ieee]

/-- A window's tokens projected by a weight matrix, split into heads. -/
def proj (X : Fin 49 → Fin 256 → EReal) (w : Fin 256 → Fin 256 → EReal) (l : Fin 49) (h : Fin 8) (d : Fin 32) : EReal :=
  ∑ c : Fin 256, X l c * w c (chan h d)

/-- The attention scores of a head: query times key, plus the position bias, plus the mask. -/
def score (X : Fin 49 → Fin 256 → EReal) (wq wk : Fin 256 → Fin 256 → EReal)
    (B : Fin 8 → Fin 49 → Fin 49 → EReal) (M : Fin 49 → Fin 49 → EReal) (h : Fin 8) (q k : Fin 49) : EReal :=
  (∑ d : Fin 32, proj X wq q h d * proj X wk k h d) + B h q k + M q k

/-- The maximum of a row of 49 scores, folded from −∞. -/
def rowMax (s : Fin 49 → EReal) : EReal := (Finset.univ : Finset (Fin 49)).fold max negInf s

/-- A row's shifted exponentials. -/
def expo (s : Fin 49 → EReal) (k : Fin 49) : EReal := Ideal.exp (s k - rowMax s)

/-- A row's softmax. -/
def attn (s : Fin 49 → EReal) (k : Fin 49) : EReal := Ideal.div (expo s k) (∑ k' : Fin 49, expo s k')

/-- A head's output: the softmax-weighted sum of the values. -/
def headOut (X : Fin 49 → Fin 256 → EReal) (wq wk wv : Fin 256 → Fin 256 → EReal)
    (B : Fin 8 → Fin 49 → Fin 49 → EReal) (M : Fin 49 → Fin 49 → EReal) (q : Fin 49) (h : Fin 8) (d : Fin 32) : EReal :=
  ∑ k : Fin 49, attn (score X wq wk B M h q) k * proj X wv k h d

/-- The window's result: the heads' outputs, laid side by side as 256 channels, projected by `wo`. -/
def window (X : Fin 49 → Fin 256 → EReal) (wq wk wv wo : Fin 256 → Fin 256 → EReal)
    (B : Fin 8 → Fin 49 → Fin 49 → EReal) (M : Fin 49 → Fin 49 → EReal) (l : Fin 49) (e : Fin 256) : EReal :=
  ∑ c : Fin 256, headOut X wq wk wv B M l (headOf c) (laneOf c) * wo c e

end WinAttn

end
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.KLayout.lean ====
/-
  The kernel's layout operations read at coordinates.

  Inside the kernel a block of 32 windows is held in several arrangements: tokens as rows of a
  [1568, 256] matrix (row 49 b + l), channels split into heads [32, 49, 8, 32], heads moved next to the
  window [32, 8, 49, 32], and window and head merged into one batch axis [256, 49, ·] (batch 8 b + h).
  Each lemma says which entry of the operand one cast, transpose or broadcast reads, with both indices
  written by coordinates; the three matrix products are read as sums over their one contracted axis.
-/
import proofs.«170671_j78400333021343_2_alg».proof.KernelIdeal
import proofs.«170671_j78400333021343_2_alg».proof.Proof.Spec
import proofs.«170671_j78400333021343_2_alg».proof.Proof.LibTileDot
import Idealize.ShloMosaic.Lib.Pipeline.Value
import Idealize.ShloMosaic.Lib.ValueIdx
import Idealize.ShloMosaic.PureOps.Ideal.Laws

noncomputable section

namespace Cert.KernelIdeal.Layout

open Idealize.ShloMosaic Idealize.ShloMosaic.ValueIdx Cert.KernelIdeal WinAttn

variable {α : Type}

/-- Row `49 b + l` of the block's token matrix: token `l` of window `b`. -/
def row (b : Fin 32) (l : Fin 49) : Fin 1568 := ⟨b.val * 49 + l.val, by have := b.isLt; have := l.isLt; omega⟩
/-- Batch `8 b + h`: head `h` of window `b`. -/
def grp (b : Fin 32) (h : Fin 8) : Fin 256 := ⟨b.val * 8 + h.val, by have := b.isLt; have := h.isLt; omega⟩

theorem row_val (b : Fin 32) (l : Fin 49) : (row b l).val = b.val * 49 + l.val := rfl
theorem grp_val (b : Fin 32) (h : Fin 8) : (grp b h).val = b.val * 8 + h.val := rfl

/-! ## Shape casts -/

/-- Tokens of the block as rows. -/
theorem cast_block_rows (x : S32x49x256.Idx → α) (h : S32x49x256.ShapeCasts S1568x256) (b : Fin 32) (l : Fin 49) (c : Fin 256) :
    shapeCast S1568x256 x h (ix2 (row b l) c) = x (ix3 b l c) :=
  shapeCast_apply x h _ _ (by
    rw [Shape.rowMajor_val_three, Shape.rowMajor_val_two]
    show (b.val * 49 + l.val) * 256 + c.val = (b.val * 49 + l.val) * 256 + c.val
    rfl)

/-- Rows back to the block. -/
theorem cast_rows_block (x : S1568x256.Idx → α) (h : S1568x256.ShapeCasts S32x49x256) (b : Fin 32) (l : Fin 49) (c : Fin 256) :
    shapeCast S32x49x256 x h (ix3 b l c) = x (ix2 (row b l) c) :=
  shapeCast_apply x h _ _ (by
    rw [Shape.rowMajor_val_three, Shape.rowMajor_val_two]
    show (b.val * 49 + l.val) * 256 + c.val = (b.val * 49 + l.val) * 256 + c.val
    rfl)

/-- A row's 256 channels split into 8 heads of 32 lanes. -/
theorem cast_rows_heads (x : S1568x256.Idx → α) (h : S1568x256.ShapeCasts S32x49x8x32) (b : Fin 32) (l : Fin 49) (hh : Fin 8) (d : Fin 32) :
    shapeCast S32x49x8x32 x h (ix4 b l hh d) = x (ix2 (row b l) (chan hh d)) :=
  shapeCast_apply x h _ _ (by
    rw [Shape.rowMajor_val_two, Shape.rowMajor_val_four]
    show (b.val * 49 + l.val) * 256 + (hh.val * 32 + d.val) = ((b.val * 49 + l.val) * 8 + hh.val) * 32 + d.val
    omega)

/-- Heads and lanes merged back into a row's channels. -/
theorem cast_heads_rows (x : S32x49x8x32.Idx → α) (h : S32x49x8x32.ShapeCasts S1568x256) (b : Fin 32) (l : Fin 49) (c : Fin 256) :
    shapeCast S1568x256 x h (ix2 (row b l) c) = x (ix4 b l (headOf c) (laneOf c)) :=
  shapeCast_apply x h _ _ (by
    rw [Shape.rowMajor_val_four, Shape.rowMajor_val_two]
    show ((b.val * 49 + l.val) * 8 + c.val / 32) * 32 + c.val % 32 = (b.val * 49 + l.val) * 256 + c.val
    omega)

/-- Window and head merged into one batch axis (last axis of extent `n`). -/
theorem cast_merge32 (x : S32x8x49x32.Idx → α) (h : S32x8x49x32.ShapeCasts S256x49x32) (b : Fin 32) (hh : Fin 8) (l : Fin 49) (d : Fin 32) :
    shapeCast S256x49x32 x h (ix3 (grp b hh) l d) = x (ix4 b hh l d) :=
  shapeCast_apply x h _ _ (by
    rw [Shape.rowMajor_val_four, Shape.rowMajor_val_three]
    show ((b.val * 8 + hh.val) * 49 + l.val) * 32 + d.val = ((b.val * 8 + hh.val) * 49 + l.val) * 32 + d.val
    rfl)

theorem cast_split32 (x : S256x49x32.Idx → α) (h : S256x49x32.ShapeCasts S32x8x49x32) (b : Fin 32) (hh : Fin 8) (l : Fin 49) (d : Fin 32) :
    shapeCast S32x8x49x32 x h (ix4 b hh l d) = x (ix3 (grp b hh) l d) :=
  shapeCast_apply x h _ _ (by
    rw [Shape.rowMajor_val_three, Shape.rowMajor_val_four]
    show ((b.val * 8 + hh.val) * 49 + l.val) * 32 + d.val = ((b.val * 8 + hh.val) * 49 + l.val) * 32 + d.val
    rfl)

theorem cast_merge49 (x : S32x8x49x49.Idx → α) (h : S32x8x49x49.ShapeCasts S256x49x49) (b : Fin 32) (hh : Fin 8) (q k : Fin 49) :
    shapeCast S256x49x49 x h (ix3 (grp b hh) q k) = x (ix4 b hh q k) :=
  shapeCast_apply x h _ _ (by
    rw [Shape.rowMajor_val_four, Shape.rowMajor_val_three]
    show ((b.val * 8 + hh.val) * 49 + q.val) * 49 + k.val = ((b.val * 8 + hh.val) * 49 + q.val) * 49 + k.val
    rfl)

theorem cast_split49 (x : S256x49x49.Idx → α) (h : S256x49x49.ShapeCasts S32x8x49x49) (b : Fin 32) (hh : Fin 8) (q k : Fin 49) :
    shapeCast S32x8x49x49 x h (ix4 b hh q k) = x (ix3 (grp b hh) q k) :=
  shapeCast_apply x h _ _ (by
    rw [Shape.rowMajor_val_three, Shape.rowMajor_val_four]
    show ((b.val * 8 + hh.val) * 49 + q.val) * 49 + k.val = ((b.val * 8 + hh.val) * 49 + q.val) * 49 + k.val
    rfl)

/-- The bias with a leading unit axis. -/
theorem cast_bias_unit (x : S8x49x49.Idx → α) (h : S8x49x49.ShapeCasts S1x8x49x49) (u : Fin 1) (hh : Fin 8) (q k : Fin 49) :
    shapeCast S1x8x49x49 x h (ix4 u hh q k) = x (ix3 hh q k) :=
  shapeCast_apply x h _ _ (by
    have hu : u.val = 0 := by omega
    rw [Shape.rowMajor_val_three, Shape.rowMajor_val_four]
    show (hh.val * 49 + q.val) * 49 + k.val = ((u.val * 8 + hh.val) * 49 + q.val) * 49 + k.val
    rw [hu, Nat.zero_mul, Nat.zero_add])

/-- The mask block with a unit head axis. -/
theorem cast_mask_unit (x : S32x49x49.Idx → α) (h : S32x49x49.ShapeCasts S32x1x49x49) (b : Fin 32) (u : Fin 1) (q k : Fin 49) :
    shapeCast S32x1x49x49 x h (ix4 b u q k) = x (ix3 b q k) :=
  shapeCast_apply x h _ _ (by
    have hu : u.val = 0 := by omega
    rw [Shape.rowMajor_val_three, Shape.rowMajor_val_four]
    show (b.val * 49 + q.val) * 49 + k.val = ((b.val * 1 + u.val) * 49 + q.val) * 49 + k.val
    rw [hu, Nat.mul_one, Nat.add_zero])

/-- A per-row statistic with a trailing unit axis. -/
theorem cast_stat_unit (x : S256x49.Idx → α) (h : S256x49.ShapeCasts S256x49x1) (g : Fin 256) (q : Fin 49) (u : Fin 1) :
    shapeCast S256x49x1 x h (ix3 g q u) = x (ix2 g q) :=
  shapeCast_apply x h _ _ (by
    have hu : u.val = 0 := by omega
    rw [Shape.rowMajor_val_two, Shape.rowMajor_val_three]
    show g.val * 49 + q.val = (g.val * 49 + q.val) * 1 + u.val
    rw [hu, Nat.mul_one, Nat.add_zero])

/-! ## Transposes -/

theorem tr_tokens_heads (x : S32x49x8x32.Idx → α) (h : S32x49x8x32.Transposes [0, 2, 1, 3] S32x8x49x32) (b : Fin 32) (hh : Fin 8) (l : Fin 49) (d : Fin 32) :
    transpose S32x8x49x32 [0, 2, 1, 3] x h (ix4 b hh l d) = x (ix4 b l hh d) :=
  transpose_apply _ x h _ _ fun c => match c with | ⟨0, _⟩ => rfl | ⟨1, _⟩ => rfl | ⟨2, _⟩ => rfl | ⟨3, _⟩ => rfl

theorem tr_heads_tokens (x : S32x8x49x32.Idx → α) (h : S32x8x49x32.Transposes [0, 2, 1, 3] S32x49x8x32) (b : Fin 32) (l : Fin 49) (hh : Fin 8) (d : Fin 32) :
    transpose S32x49x8x32 [0, 2, 1, 3] x h (ix4 b l hh d) = x (ix4 b hh l d) :=
  transpose_apply _ x h _ _ fun c => match c with | ⟨0, _⟩ => rfl | ⟨1, _⟩ => rfl | ⟨2, _⟩ => rfl | ⟨3, _⟩ => rfl

/-! ## Broadcasts -/

/-- The bias repeated over the 32 windows. -/
theorem bc_bias (x : S1x8x49x49.Idx → α) (h : S1x8x49x49.Broadcasts S32x8x49x49) (b : Fin 32) (hh : Fin 8) (q k : Fin 49) :
    broadcastTo S32x8x49x49 x h (ix4 b hh q k) = x (ix4 (0 : Fin 1) hh q k) :=
  broadcastTo_apply x h _ _ fun a => match a with | ⟨0, _⟩ => rfl | ⟨1, _⟩ => rfl | ⟨2, _⟩ => rfl | ⟨3, _⟩ => rfl

/-- The mask repeated over the 8 heads. -/
theorem bc_mask (x : S32x1x49x49.Idx → α) (h : S32x1x49x49.Broadcasts S32x8x49x49) (b : Fin 32) (hh : Fin 8) (q k : Fin 49) :
    broadcastTo S32x8x49x49 x h (ix4 b hh q k) = x (ix4 b (0 : Fin 1) q k) :=
  broadcastTo_apply x h _ _ fun a => match a with | ⟨0, _⟩ => rfl | ⟨1, _⟩ => rfl | ⟨2, _⟩ => rfl | ⟨3, _⟩ => rfl

/-- A per-row statistic repeated along the row. -/
theorem bc_stat (x : S256x49x1.Idx → α) (h : S256x49x1.Broadcasts S256x49x49) (g : Fin 256) (q k : Fin 49) :
    broadcastTo S256x49x49 x h (ix3 g q k) = x (ix3 g q (0 : Fin 1)) :=
  broadcastTo_apply x h _ _ fun a => match a with | ⟨0, _⟩ => rfl | ⟨1, _⟩ => rfl | ⟨2, _⟩ => rfl

/-! ## The reduced row index with a key put back -/

theorem lift_row (h : S256x49x49.Reduces [2] S256x49) (g : Fin 256) (q : Fin 49) (k : Fin (S256x49x49.size 2)) :
    h.lift (ix2 g q) k = ix3 g q (⟨k.val, k.isLt⟩ : Fin 49) := by
  funext c; apply Fin.ext
  fin_cases c <;> rfl

end Cert.KernelIdeal.Layout

end
-- ==== Proof.KStages.lean ====
/-
  The kernel's arithmetic, stage by stage, read at coordinates at the ideal values.

  The body's one store writes, for a block of 32 windows, the composition of: the three projections of the
  block's tokens (a [1568, 256] by [256, 256] product each, split into heads), the scores of every (window,
  head) batch (query rows times key rows), the bias and mask added, a softmax along each row, the product
  with the values, the heads laid back side by side, and the output projection. Each stage is named here
  as a function of its operands, and read at an index written by coordinates.
-/
import proofs.«170671_j78400333021343_2_alg».proof.Proof.Gen.KernelIdeal.Skeleton
import proofs.«170671_j78400333021343_2_alg».proof.Proof.KLayout

noncomputable section

namespace Cert.KernelIdeal.Stages

open Idealize.ShloMosaic Idealize.ShloMosaic.ValueIdx Cert.KernelIdeal Cert.KernelIdeal.Gen Cert.KernelIdeal.Layout WinAttn

/-! ## The three products' operand indices -/

/-- Token matrix times weights: the left factor is read along the output's row. -/
theorem rows_lhs (j : S1568x256.Idx) (k : Fin 256) :
    dot_S1568x256_S256x256_S1568x256_1_0_0_1_n_n.lhsIdx j ((contrEquiv1 dot_S1568x256_S256x256_S1568x256_1_0_0_1_n_n 256 rfl rfl).symm k) = ix2 (j 0) k := by
  funext a; apply Fin.ext
  match a with
  | ⟨0, _⟩ =>
    show (dot_S1568x256_S256x256_S1568x256_1_0_0_1_n_n.lhsIdx j _ 0).val = (j 0).val
    unfold DotDims.lhsIdx
    rw [dif_neg (show ¬(0 : Fin S1568x256.rank) ∈ dot_S1568x256_S256x256_S1568x256_1_0_0_1_n_n.lhsBatch by decide), dif_pos (show (0 : Fin S1568x256.rank) ∈ dot_S1568x256_S256x256_S1568x256_1_0_0_1_n_n.lhsNonContracting by decide)]
    rfl
  | ⟨1, _⟩ => exact (dot_S1568x256_S256x256_S1568x256_1_0_0_1_n_n.lhsIdx_val_of_single rfl j _).trans (contrEquiv1_symm_val dot_S1568x256_S256x256_S1568x256_1_0_0_1_n_n _ rfl rfl k)

/-- … and the right factor down the output's column. -/
theorem rows_rhs (j : S1568x256.Idx) (k : Fin 256) :
    dot_S1568x256_S256x256_S1568x256_1_0_0_1_n_n.rhsIdx j ((contrEquiv1 dot_S1568x256_S256x256_S1568x256_1_0_0_1_n_n 256 rfl rfl).symm k) = ix2 k (j 1) := by
  funext a; apply Fin.ext
  match a with
  | ⟨0, _⟩ => exact (dot_S1568x256_S256x256_S1568x256_1_0_0_1_n_n.rhsIdx_val_of_single rfl j _).trans (contrEquiv1_symm_val dot_S1568x256_S256x256_S1568x256_1_0_0_1_n_n _ rfl rfl k)
  | ⟨1, _⟩ =>
    show (dot_S1568x256_S256x256_S1568x256_1_0_0_1_n_n.rhsIdx j _ 1).val = (j 1).val
    unfold DotDims.rhsIdx
    rw [dif_neg (show ¬(1 : Fin S256x256.rank) ∈ dot_S1568x256_S256x256_S1568x256_1_0_0_1_n_n.rhsBatch by decide), dif_pos (show (1 : Fin S256x256.rank) ∈ dot_S1568x256_S256x256_S1568x256_1_0_0_1_n_n.rhsNonContracting by decide)]
    rfl

theorem matmul_rows {φ₁ φ₂ : FTy} (lhs : FVec Ideal S1568x256 φ₁) (rhs : FVec Ideal S256x256 φ₂) (r : Fin 1568) (e : Fin 256) :
    matmul dot_S1568x256_S256x256_S1568x256_1_0_0_1_n_n none lhs rhs (constant (F := Ideal) S1568x256 .f32 0x00000000#32) (ix2 r e)
      = ∑ k : Fin 256, lhs (ix2 r k) * rhs (ix2 k e) :=
  Cert.LibTileDot.matmul_zero_at dot_S1568x256_S256x256_S1568x256_1_0_0_1_n_n none 256 rfl rfl lhs rhs (ix2 r e) (fun k => ix2 r k) (fun k => ix2 k e)
    (fun k => rows_lhs _ k) (fun k => rows_rhs _ k)

/-- Queries times keys within a batch: the left factor is the query row's lane. -/
theorem qk_lhs (j : S256x49x49.Idx) (k : Fin 32) :
    dot_S256x49x32_S256x49x32_S256x49x49_2_2_1_1_0_0.lhsIdx j ((contrEquiv1 dot_S256x49x32_S256x49x32_S256x49x49_2_2_1_1_0_0 32 rfl rfl).symm k) = ix3 (j 0) (j 1) k := by
  funext a; apply Fin.ext
  match a with
  | ⟨0, _⟩ =>
    show (dot_S256x49x32_S256x49x32_S256x49x49_2_2_1_1_0_0.lhsIdx j _ 0).val = (j 0).val
    unfold DotDims.lhsIdx
    rw [dif_pos (show (0 : Fin S256x49x32.rank) ∈ dot_S256x49x32_S256x49x32_S256x49x49_2_2_1_1_0_0.lhsBatch by decide)]
    rfl
  | ⟨1, _⟩ =>
    show (dot_S256x49x32_S256x49x32_S256x49x49_2_2_1_1_0_0.lhsIdx j _ 1).val = (j 1).val
    unfold DotDims.lhsIdx
    rw [dif_neg (show ¬(1 : Fin S256x49x32.rank) ∈ dot_S256x49x32_S256x49x32_S256x49x49_2_2_1_1_0_0.lhsBatch by decide), dif_pos (show (1 : Fin S256x49x32.rank) ∈ dot_S256x49x32_S256x49x32_S256x49x49_2_2_1_1_0_0.lhsNonContracting by decide)]
    rfl
  | ⟨2, _⟩ => exact (dot_S256x49x32_S256x49x32_S256x49x49_2_2_1_1_0_0.lhsIdx_val_of_single rfl j _).trans (contrEquiv1_symm_val dot_S256x49x32_S256x49x32_S256x49x49_2_2_1_1_0_0 _ rfl rfl k)

theorem qk_rhs (j : S256x49x49.Idx) (k : Fin 32) :
    dot_S256x49x32_S256x49x32_S256x49x49_2_2_1_1_0_0.rhsIdx j ((contrEquiv1 dot_S256x49x32_S256x49x32_S256x49x49_2_2_1_1_0_0 32 rfl rfl).symm k) = ix3 (j 0) (j 2) k := by
  funext a; apply Fin.ext
  match a with
  | ⟨0, _⟩ =>
    show (dot_S256x49x32_S256x49x32_S256x49x49_2_2_1_1_0_0.rhsIdx j _ 0).val = (j 0).val
    unfold DotDims.rhsIdx
    rw [dif_pos (show (0 : Fin S256x49x32.rank) ∈ dot_S256x49x32_S256x49x32_S256x49x49_2_2_1_1_0_0.rhsBatch by decide)]
    rfl
  | ⟨1, _⟩ =>
    show (dot_S256x49x32_S256x49x32_S256x49x49_2_2_1_1_0_0.rhsIdx j _ 1).val = (j 2).val
    unfold DotDims.rhsIdx
    rw [dif_neg (show ¬(1 : Fin S256x49x32.rank) ∈ dot_S256x49x32_S256x49x32_S256x49x49_2_2_1_1_0_0.rhsBatch by decide), dif_pos (show (1 : Fin S256x49x32.rank) ∈ dot_S256x49x32_S256x49x32_S256x49x49_2_2_1_1_0_0.rhsNonContracting by decide)]
    rfl
  | ⟨2, _⟩ => exact (dot_S256x49x32_S256x49x32_S256x49x49_2_2_1_1_0_0.rhsIdx_val_of_single rfl j _).trans (contrEquiv1_symm_val dot_S256x49x32_S256x49x32_S256x49x49_2_2_1_1_0_0 _ rfl rfl k)

theorem matmul_qk {φ₁ φ₂ : FTy} (lhs : FVec Ideal S256x49x32 φ₁) (rhs : FVec Ideal S256x49x32 φ₂) (g : Fin 256) (q k : Fin 49) :
    matmul dot_S256x49x32_S256x49x32_S256x49x49_2_2_1_1_0_0 none lhs rhs (constant (F := Ideal) S256x49x49 .f32 0x00000000#32) (ix3 g q k)
      = ∑ d : Fin 32, lhs (ix3 g q d) * rhs (ix3 g k d) :=
  Cert.LibTileDot.matmul_zero_at dot_S256x49x32_S256x49x32_S256x49x49_2_2_1_1_0_0 none 32 rfl rfl lhs rhs (ix3 g q k) (fun d => ix3 g q d) (fun d => ix3 g k d)
    (fun d => qk_lhs _ d) (fun d => qk_rhs _ d)

/-- Attention weights times values within a batch. -/
theorem av_lhs (j : S256x49x32.Idx) (k : Fin 49) :
    dot_S256x49x49_S256x49x32_S256x49x32_2_1_1_2_0_0.lhsIdx j ((contrEquiv1 dot_S256x49x49_S256x49x32_S256x49x32_2_1_1_2_0_0 49 rfl rfl).symm k) = ix3 (j 0) (j 1) k := by
  funext a; apply Fin.ext
  match a with
  | ⟨0, _⟩ =>
    show (dot_S256x49x49_S256x49x32_S256x49x32_2_1_1_2_0_0.lhsIdx j _ 0).val = (j 0).val
    unfold DotDims.lhsIdx
    rw [dif_pos (show (0 : Fin S256x49x49.rank) ∈ dot_S256x49x49_S256x49x32_S256x49x32_2_1_1_2_0_0.lhsBatch by decide)]
    rfl
  | ⟨1, _⟩ =>
    show (dot_S256x49x49_S256x49x32_S256x49x32_2_1_1_2_0_0.lhsIdx j _ 1).val = (j 1).val
    unfold DotDims.lhsIdx
    rw [dif_neg (show ¬(1 : Fin S256x49x49.rank) ∈ dot_S256x49x49_S256x49x32_S256x49x32_2_1_1_2_0_0.lhsBatch by decide), dif_pos (show (1 : Fin S256x49x49.rank) ∈ dot_S256x49x49_S256x49x32_S256x49x32_2_1_1_2_0_0.lhsNonContracting by decide)]
    rfl
  | ⟨2, _⟩ => exact (dot_S256x49x49_S256x49x32_S256x49x32_2_1_1_2_0_0.lhsIdx_val_of_single rfl j _).trans (contrEquiv1_symm_val dot_S256x49x49_S256x49x32_S256x49x32_2_1_1_2_0_0 _ rfl rfl k)

theorem av_rhs (j : S256x49x32.Idx) (k : Fin 49) :
    dot_S256x49x49_S256x49x32_S256x49x32_2_1_1_2_0_0.rhsIdx j ((contrEquiv1 dot_S256x49x49_S256x49x32_S256x49x32_2_1_1_2_0_0 49 rfl rfl).symm k) = ix3 (j 0) k (j 2) := by
  funext a; apply Fin.ext
  match a with
  | ⟨0, _⟩ =>
    show (dot_S256x49x49_S256x49x32_S256x49x32_2_1_1_2_0_0.rhsIdx j _ 0).val = (j 0).val
    unfold DotDims.rhsIdx
    rw [dif_pos (show (0 : Fin S256x49x32.rank) ∈ dot_S256x49x49_S256x49x32_S256x49x32_2_1_1_2_0_0.rhsBatch by decide)]
    rfl
  | ⟨1, _⟩ => exact (dot_S256x49x49_S256x49x32_S256x49x32_2_1_1_2_0_0.rhsIdx_val_of_single rfl j _).trans (contrEquiv1_symm_val dot_S256x49x49_S256x49x32_S256x49x32_2_1_1_2_0_0 _ rfl rfl k)
  | ⟨2, _⟩ =>
    show (dot_S256x49x49_S256x49x32_S256x49x32_2_1_1_2_0_0.rhsIdx j _ 2).val = (j 2).val
    unfold DotDims.rhsIdx
    rw [dif_neg (show ¬(2 : Fin S256x49x32.rank) ∈ dot_S256x49x49_S256x49x32_S256x49x32_2_1_1_2_0_0.rhsBatch by decide), dif_pos (show (2 : Fin S256x49x32.rank) ∈ dot_S256x49x49_S256x49x32_S256x49x32_2_1_1_2_0_0.rhsNonContracting by decide)]
    rfl

theorem matmul_av {φ₁ φ₂ : FTy} (lhs : FVec Ideal S256x49x49 φ₁) (rhs : FVec Ideal S256x49x32 φ₂) (g : Fin 256) (q : Fin 49) (d : Fin 32) :
    matmul dot_S256x49x49_S256x49x32_S256x49x32_2_1_1_2_0_0 none lhs rhs (constant (F := Ideal) S256x49x32 .f32 0x00000000#32) (ix3 g q d)
      = ∑ k : Fin 49, lhs (ix3 g q k) * rhs (ix3 g k d) :=
  Cert.LibTileDot.matmul_zero_at dot_S256x49x49_S256x49x32_S256x49x32_2_1_1_2_0_0 none 49 rfl rfl lhs rhs (ix3 g q d) (fun k => ix3 g q k) (fun k => ix3 g k d)
    (fun k => av_lhs _ k) (fun k => av_rhs _ k)

/-! ## A row's maximum and sum -/

theorem rowMax_read (s : FVec Ideal S256x49x49 .f32) (h : S256x49x49.Reduces [2] S256x49) (hφ : FKind.Formats .f32)
    (hacc : (0xFF800000#32 : BitVec 32) = FKind.maximumf.neutral .f32 hφ) (g : Fin 256) (q : Fin 49) :
    multiReduction .maximumf [2] S256x49 s 0xFF800000#32 h hφ hacc (ix2 g q) = rowMax fun k => s (ix3 g q k) := by
  refine (Ideal.multiReduction_maximumf_single s 0xFF800000#32 h hφ hacc (ix2 g q)).trans ?_
  have hf : (s ∘ h.lift (ix2 g q)) = fun k : Fin 49 => s (ix3 g q k) := funext fun k => congrArg s (lift_row h g q k)
  exact congrArg (fun f => Finset.fold max (Ideal.ofBits .f32 0xFF800000#32) f (Finset.univ : Finset (Fin 49))) hf

theorem rowSum_read (s : FVec Ideal S256x49x49 .f32) (h : S256x49x49.Reduces [2] S256x49) (hφ : FKind.Formats .f32)
    (hacc : (0x00000000#32 : BitVec 32) = FKind.add.neutral .f32 hφ) (g : Fin 256) (q : Fin 49) :
    multiReduction .add [2] S256x49 s 0x00000000#32 h hφ hacc (ix2 g q) = ∑ k : Fin 49, s (ix3 g q k) := by
  refine (Ideal.multiReduction_add_single s 0x00000000#32 h hφ hacc (ix2 g q)).trans ?_
  exact Finset.sum_congr rfl fun k _ => congrArg s (lift_row h g q k)

/-! ## The stages -/

/-- The block's tokens projected by one weight matrix, the 256 output channels split into heads. -/
def projHeads (x0 : FVec Ideal S32x49x256 .f32) (w : FVec Ideal S256x256 .f32) : FVec Ideal S32x49x8x32 .f32 :=
  shapeCast S32x49x8x32
    (matmul dot_S1568x256_S256x256_S1568x256_1_0_0_1_n_n none (k0_pay3 x0) (truncf .bf16 w bitsLt_bf16_f32) (constant S1568x256 .f32 0x00000000#32))
    shapeCasts_S1568x256_S32x49x8x32

theorem projHeads_apply (x0 : FVec Ideal S32x49x256 .f32) (w : FVec Ideal S256x256 .f32) (b : Fin 32) (l : Fin 49) (hh : Fin 8) (d : Fin 32) :
    projHeads x0 w (ix4 b l hh d) = proj (fun l c => x0 (ix3 b l c)) (fun a e => w (ix2 a e)) l hh d := by
  unfold projHeads
  rw [cast_rows_heads, matmul_rows]
  unfold proj
  refine Finset.sum_congr rfl fun k _ => ?_
  unfold k0_pay3
  rw [cast_block_rows]
  rfl

/-- Heads moved next to the window and merged with it into one batch axis. -/
def byHead {φ : FTy} (p : FVec Ideal S32x49x8x32 φ) : FVec Ideal S256x49x32 φ :=
  shapeCast S256x49x32 (transpose S32x8x49x32 [0, 2, 1, 3] p transposes_S32x49x8x32_p0_2_1_3_S32x8x49x32) shapeCasts_S32x8x49x32_S256x49x32

theorem byHead_apply {φ : FTy} (p : FVec Ideal S32x49x8x32 φ) (b : Fin 32) (hh : Fin 8) (l : Fin 49) (d : Fin 32) :
    byHead p (ix3 (grp b hh) l d) = p (ix4 b l hh d) := by
  unfold byHead
  rw [cast_merge32, tr_tokens_heads]

/-- The query-key products of every batch, as the body computes them. -/
theorem pay5_eq (x0 : FVec Ideal S32x49x256 .f32) (wq wk : FVec Ideal S256x256 .f32) :
    k0_pay5 (F := Ideal) x0 wq wk
      = shapeCast S32x8x49x49 (matmul dot_S256x49x32_S256x49x32_S256x49x49_2_2_1_1_0_0 none (byHead (projHeads x0 wq)) (byHead (projHeads x0 wk)) (constant S256x49x49 .f32 0x00000000#32))
          shapeCasts_S256x49x49_S32x8x49x49 := rfl

theorem pay5_apply (x0 : FVec Ideal S32x49x256 .f32) (wq wk : FVec Ideal S256x256 .f32) (b : Fin 32) (hh : Fin 8) (q k : Fin 49) :
    k0_pay5 (F := Ideal) x0 wq wk (ix4 b hh q k)
      = ∑ d : Fin 32, proj (fun l c => x0 (ix3 b l c)) (fun a e => wq (ix2 a e)) q hh d * proj (fun l c => x0 (ix3 b l c)) (fun a e => wk (ix2 a e)) k hh d := by
  rw [pay5_eq, cast_split49, matmul_qk]
  refine Finset.sum_congr rfl fun d _ => ?_
  rw [byHead_apply, byHead_apply, projHeads_apply, projHeads_apply]

/-- The values of every batch. -/
theorem pay4_eq (x0 : FVec Ideal S32x49x256 .f32) (wv : FVec Ideal S256x256 .f32) :
    k0_pay4 (F := Ideal) x0 wv = byHead (truncf .bf16 (projHeads x0 wv) bitsLt_bf16_f32) := rfl

theorem pay4_apply (x0 : FVec Ideal S32x49x256 .f32) (wv : FVec Ideal S256x256 .f32) (b : Fin 32) (hh : Fin 8) (k : Fin 49) (d : Fin 32) :
    k0_pay4 (F := Ideal) x0 wv (ix3 (grp b hh) k d) = proj (fun l c => x0 (ix3 b l c)) (fun a e => wv (ix2 a e)) k hh d := by
  rw [pay4_eq, byHead_apply]
  exact projHeads_apply x0 wv b k hh d

/-- Scores with the position bias and the mask added, window and head merged. -/
def scoreRows (v25 : FVec Ideal S32x8x49x49 .f32) (v39 : FVec Ideal S32x49x49 .f32) (v40 : FVec Ideal S8x49x49 .f32) : FVec Ideal S256x49x49 .f32 :=
  shapeCast S256x49x49
    (addf (addf v25 (broadcastTo S32x8x49x49 (shapeCast S1x8x49x49 (shapeCast S8x49x49 v40 shapeCasts_S8x49x49_S8x49x49) shapeCasts_S8x49x49_S1x8x49x49) broadcasts_S1x8x49x49_S32x8x49x49))
      (broadcastTo S32x8x49x49 (shapeCast S32x1x49x49 v39 shapeCasts_S32x49x49_S32x1x49x49) broadcasts_S32x1x49x49_S32x8x49x49))
    shapeCasts_S32x8x49x49_S256x49x49

theorem scoreRows_apply (v25 : FVec Ideal S32x8x49x49 .f32) (v39 : FVec Ideal S32x49x49 .f32) (v40 : FVec Ideal S8x49x49 .f32)
    (b : Fin 32) (hh : Fin 8) (q k : Fin 49) :
    scoreRows v25 v39 v40 (ix3 (grp b hh) q k) = v25 (ix4 b hh q k) + v40 (ix3 hh q k) + v39 (ix3 b q k) := by
  unfold scoreRows
  rw [cast_merge49, addf_apply, addf_apply, bc_bias, cast_bias_unit, shapeCast_self, bc_mask, cast_mask_unit]

/-- A per-row statistic repeated along its row. -/
def rowStat (st : FVec Ideal S256x49 .f32) : FVec Ideal S256x49x49 .f32 :=
  broadcastTo S256x49x49 (shapeCast S256x49x1 st shapeCasts_S256x49_S256x49x1) broadcasts_S256x49x1_S256x49x49

theorem rowStat_apply (st : FVec Ideal S256x49 .f32) (g : Fin 256) (q k : Fin 49) : rowStat st (ix3 g q k) = st (ix2 g q) := by
  unfold rowStat
  rw [bc_stat, cast_stat_unit]

/-- Each row's entries minus the row's maximum, exponentiated. -/
def shifted (s : FVec Ideal S256x49x49 .f32) : FVec Ideal S256x49x49 .f32 :=
  exp (subf s (rowStat (multiReduction .maximumf [2] S256x49 s 0xFF800000#32 reduces_S256x49x49_S256x49 (.inl rfl) rfl)))

theorem shifted_apply (s : FVec Ideal S256x49x49 .f32) (g : Fin 256) (q k : Fin 49) :
    shifted s (ix3 g q k) = expo (fun k' => s (ix3 g q k')) k := by
  unfold shifted
  show Ideal.exp (subf s _ (ix3 g q k)) = _
  rw [subf_apply, rowStat_apply]
  exact congrArg (fun z => Ideal.exp (s (ix3 g q k) - z)) (rowMax_read s _ _ _ g q)

/-- Each row normalised by its sum. -/
def softmaxRows (s : FVec Ideal S256x49x49 .f32) : FVec Ideal S256x49x49 .f32 :=
  divf (shifted s) (rowStat (multiReduction .add [2] S256x49 (shifted s) 0x00000000#32 reduces_S256x49x49_S256x49 (.inl rfl) rfl))

theorem softmaxRows_apply (s : FVec Ideal S256x49x49 .f32) (g : Fin 256) (q k : Fin 49) :
    softmaxRows s (ix3 g q k) = attn (fun k' => s (ix3 g q k')) k := by
  unfold softmaxRows
  rw [divf_apply, rowStat_apply, shifted_apply]
  unfold attn
  refine congrArg (fun z => Ideal.div (expo (fun k' => s (ix3 g q k')) k) z) ?_
  refine (rowSum_read (shifted s) _ _ _ g q).trans ?_
  exact Finset.sum_congr rfl fun k' _ => shifted_apply s g q k'

/-- Attention weights times values, the heads laid back side by side as a row's 256 channels. -/
def mixHeads (a : FVec Ideal S256x49x49 .f32) (v23 : FVec Ideal S256x49x32 .bf16) : FVec Ideal S1568x256 .bf16 :=
  shapeCast S1568x256
    (transpose S32x49x8x32 [0, 2, 1, 3]
      (truncf .bf16
        (shapeCast S32x8x49x32
          (matmul dot_S256x49x49_S256x49x32_S256x49x32_2_1_1_2_0_0 none (truncf .bf16 a bitsLt_bf16_f32) v23 (constant S256x49x32 .f32 0x00000000#32))
          shapeCasts_S256x49x32_S32x8x49x32)
        bitsLt_bf16_f32)
      transposes_S32x8x49x32_p0_2_1_3_S32x49x8x32)
    shapeCasts_S32x49x8x32_S1568x256

theorem mixHeads_apply (a : FVec Ideal S256x49x49 .f32) (v23 : FVec Ideal S256x49x32 .bf16) (b : Fin 32) (l : Fin 49) (c : Fin 256) :
    mixHeads a v23 (ix2 (row b l) c)
      = ∑ k : Fin 49, a (ix3 (grp b (headOf c)) l k) * v23 (ix3 (grp b (headOf c)) k (laneOf c)) := by
  unfold mixHeads
  rw [cast_heads_rows, tr_heads_tokens, truncf_apply, cast_split32, matmul_av]
  rfl

/-- The output projection of the block's rows. -/
def outProj (o : FVec Ideal S1568x256 .bf16) (v9 : FVec Ideal S256x256 .bf16) : FVec Ideal S32x49x256 .f32 :=
  shapeCast S32x49x256 (matmul dot_S1568x256_S256x256_S1568x256_1_0_0_1_n_n none o v9 (constant S1568x256 .f32 0x00000000#32)) shapeCasts_S1568x256_S32x49x256

theorem outProj_apply (o : FVec Ideal S1568x256 .bf16) (v9 : FVec Ideal S256x256 .bf16) (b : Fin 32) (l : Fin 49) (e : Fin 256) :
    outProj o v9 (ix3 b l e) = ∑ c : Fin 256, o (ix2 (row b l) c) * v9 (ix2 c e) := by
  unfold outProj
  rw [cast_rows_block, matmul_rows]

/-- The stored value is the composition of the stages. -/
theorem pay1_eq (v9 : FVec Ideal S256x256 .bf16) (v23 : FVec Ideal S256x49x32 .bf16) (v25 : FVec Ideal S32x8x49x49 .f32)
    (v39 : FVec Ideal S32x49x49 .f32) (v40 : FVec Ideal S8x49x49 .f32) :
    k0_pay1 (F := Ideal) v9 v23 v25 v39 v40 = outProj (mixHeads (softmaxRows (scoreRows v25 v39 v40)) v23) v9 := rfl

/-- THE BODY'S VALUE: entry (b, l, e) of the stored block is the windowed attention of window `b` of the block —
    its 49 tokens, the weights, the bias, and row `b` of the mask slice the body loaded. -/
theorem payload_window (x0 : FVec Ideal S32x49x256 .f32) (x1 x2 x3 x4 : FVec Ideal S256x256 .f32) (x5 : FVec Ideal S8x49x49 .f32)
    (v39 : FVec Ideal S32x49x49 .f32) (b : Fin 32) (l : Fin 49) (e : Fin 256) :
    k0_pay1 (F := Ideal) (k0_pay2 x4) (k0_pay4 x0 x3) (k0_pay5 x0 x1 x2) v39 x5 (ix3 b l e)
      = window (fun l c => x0 (ix3 b l c)) (fun a e => x1 (ix2 a e)) (fun a e => x2 (ix2 a e)) (fun a e => x3 (ix2 a e))
          (fun a e => x4 (ix2 a e)) (fun h q k => x5 (ix3 h q k)) (fun q k => v39 (ix3 b q k)) l e := by
  rw [pay1_eq, outProj_apply]
  unfold window
  refine Finset.sum_congr rfl fun c _ => ?_
  rw [mixHeads_apply]
  refine congrArg₂ (· * ·) ?_ rfl
  unfold headOut
  refine Finset.sum_congr rfl fun k _ => ?_
  rw [softmaxRows_apply, pay4_apply]
  refine congrArg₂ (· * ·) ?_ rfl
  refine congrArg (fun s => attn s k) (funext fun k' => ?_)
  rw [scoreRows_apply, pay5_apply]
  rfl

end Cert.KernelIdeal.Stages

end
-- ==== Proof.KPiece.lean ====
/-
  What one grid point leaves in the output's staging buffer.

  The body stores once, through the whole [32, 49, 256] staging buffer; its loads read the inputs' staging
  buffers whole, except the mask, of which it reads 32 consecutive windows starting at window
  32 (t mod 2) of the 64 (the grid point t handles windows 32 t … 32 t + 31 of 4096, whose masks are
  those windows modulo 64). So the buffer ends at the body's arithmetic applied to the input blocks and
  those 32 mask windows.
-/
import proofs.«170671_j78400333021343_2_alg».proof.Proof.Gen.KernelIdeal.Frame
import Idealize.ShloMosaic.Lib.Pipeline.Value
import Idealize.ShloMosaic.Lib.ValueIdx

set_option maxRecDepth 16384

noncomputable section

namespace Cert.KernelIdeal.Piece

open Idealize.ShloMosaic Idealize.ShloMosaic.TcCoe Idealize.ShloMosaic.Tactic Idealize.ShloMosaic.ValueIdx Idealize.SL.Sem
open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The 32 mask windows the body loads at grid coordinates `i`. -/
def maskRows (i : grid0.Coords) (x6 : Vec F S64x49x49 .f32) : Vec F S32x49x49 .f32 :=
  View.ld x6 (Rect.unit (s := S64x49x49) (k0_off1 i) S32x49x49.size (k0_off1_inb i))

/-- The staging buffer after the body: its one store's value, over the loaded blocks. -/
theorem out_eq (c : Dev nD) (i : grid0.Coords) (arg1 : Memref sig .tc .vmem S32x49x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S8x49x49 .f32) (harg6 : arg6.IsWhole) (arg7 : Memref sig .tc .vmem S64x49x49 .f32) (harg7 : arg7.IsWhole) (arg8 : Memref sig .tc .vmem S32x49x256 .f32) (harg8 : arg8.IsWhole)
    (x0 : Vec F S32x49x256 .f32) (x1 : Vec F S256x256 .f32) (x2 : Vec F S256x256 .f32) (x3 : Vec F S256x256 .f32) (x4 : Vec F S256x256 .f32) (x5 : Vec F S8x49x49 .f32) (x6 : Vec F S64x49x49 .f32) :
    out0_A_7 c i arg1 harg1 arg2 harg2 arg3 harg3 arg4 harg4 arg5 harg5 arg6 harg6 arg7 harg7 arg8 harg8 x0 x1 x2 x3 x4 x5 x6
      = k0_pay1 (k0_pay2 x4) (k0_pay4 x0 x3) (k0_pay5 x0 x1 x2) (maskRows i x6) x5 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero zeros3]
  simp only [View.readAt_eq_ld, harg1.read_unread, harg2.read_unread, harg3.read_unread, harg4.read_unread, harg5.read_unread,
    harg6.read_unread, harg7.read_unread, View.ld_unit_zero (S := S32x49x256) zeros3, View.ld_unit_zero (S := S256x256) zeros2,
    View.ld_unit_zero (S := S8x49x49) zeros3]
  rfl

/-- Where the loaded mask windows start: window 32 (t mod 2), decided over the 128 grid points. -/
theorem off_eq : ∀ t : Fin cfg0.N, ∀ a, k0_off1 (grid0.coords t) a = (![(t.val % 2) * 32, 0, 0] : Fin 3 → Nat) a :=
  (by decide +kernel : ∀ t : Fin grid0.N, ∀ a, k0_off1 (grid0.coords t) a = (![(t.val % 2) * 32, 0, 0] : Fin 3 → Nat) a)

/-- Window `b` of the loaded mask rows at point `t` is mask window `32 (t mod 2) + b`. -/
theorem maskRows_apply (t : Fin cfg0.N) (x6 : Vec F S64x49x49 .f32) (b : Fin 32) (q k : Fin 49) (w : Fin 64)
    (hw : w.val = (t.val % 2) * 32 + b.val) :
    maskRows (grid0.coords t) x6 (ix3 b q k) = x6 (ix3 w q k) := by
  unfold maskRows
  show x6 _ = x6 _
  refine congrArg x6 (funext fun a => Fin.ext ?_)
  match a with
  | ⟨0, _⟩ =>
    show k0_off1 (grid0.coords t) 0 + 1 * b.val = w.val
    rw [off_eq t 0, hw]; show (t.val % 2) * 32 + 1 * b.val = _; omega
  | ⟨1, _⟩ =>
    show k0_off1 (grid0.coords t) 1 + 1 * q.val = q.val
    rw [off_eq t 1]; show 0 + 1 * q.val = q.val; omega
  | ⟨2, _⟩ =>
    show k0_off1 (grid0.coords t) 2 + 1 * k.val = k.val
    rw [off_eq t 2]; show 0 + 1 * k.val = k.val; omega

end Cert.KernelIdeal.Piece

end
-- ==== Proof.SpecArray.lean ====
/-
  The whole result array: window `n` of the 4096 is the windowed attention of its own 49 tokens, with the
  mask of window `n mod 64` (the 4096 windows are 64 images of 64 windows, and the mask is per window of an
  image).
-/
import proofs.«170671_j78400333021343_2_alg».proof.Proof.Spec

noncomputable section

namespace WinAttn

open Idealize.ShloMosaic Idealize.ShloMosaic.ValueIdx

/-- The mask window of window `n`. -/
def maskOf (n : Fin 4096) : Fin 64 := ⟨n.val % 64, by omega⟩

theorem maskOf_val (n : Fin 4096) : (maskOf n).val = n.val % 64 := rfl

/-- The result array as one function of the argument arrays and the gathered bias. -/
def attnArray (x : (⟨3, ![4096, 49, 256]⟩ : Shape).Idx → EReal) (mask : (⟨3, ![64, 49, 49]⟩ : Shape).Idx → EReal)
    (wq wk wv wo : (⟨2, ![256, 256]⟩ : Shape).Idx → EReal) (bias : (⟨3, ![8, 49, 49]⟩ : Shape).Idx → EReal) :
    (⟨3, ![4096, 49, 256]⟩ : Shape).Idx → EReal := fun i =>
  window (fun l c => x (ix3 (i 0) l c)) (fun a e => wq (ix2 a e)) (fun a e => wk (ix2 a e)) (fun a e => wv (ix2 a e))
    (fun a e => wo (ix2 a e)) (fun h q k => bias (ix3 h q k)) (fun q k => mask (ix3 (maskOf (i 0)) q k)) (i 1) (i 2)

theorem attnArray_apply (x : (⟨3, ![4096, 49, 256]⟩ : Shape).Idx → EReal) (mask : (⟨3, ![64, 49, 49]⟩ : Shape).Idx → EReal)
    (wq wk wv wo : (⟨2, ![256, 256]⟩ : Shape).Idx → EReal) (bias : (⟨3, ![8, 49, 49]⟩ : Shape).Idx → EReal)
    (n : Fin 4096) (l : Fin 49) (e : Fin 256) :
    attnArray x mask wq wk wv wo bias (ix3 n l e)
      = window (fun l c => x (ix3 n l c)) (fun a e => wq (ix2 a e)) (fun a e => wk (ix2 a e)) (fun a e => wv (ix2 a e))
          (fun a e => wo (ix2 a e)) (fun h q k => bias (ix3 h q k)) (fun q k => mask (ix3 (maskOf n) q k)) l e := rfl

end WinAttn

end
-- ==== Proof.KBlocks.lean ====
/-
  From blocks to the whole array.

  Grid point `t` of the 128 stages windows 32 t … 32 t + 31 of the tokens, the four weight matrices, the
  bias and the mask whole, and writes back block `t` of the result. What it writes back is the body's
  value on those blocks, which entry by entry is the windowed attention of window 32 t + b: so block `t`
  of the result is block `t` of one whole-array function, the 128 blocks cover the array, and the array
  after the run is that function of the arrays the region found.
-/
import proofs.«170671_j78400333021343_2_alg».proof.Proof.Gen.KernelIdeal.Value
import proofs.«170671_j78400333021343_2_alg».proof.Proof.KStages
import proofs.«170671_j78400333021343_2_alg».proof.Proof.KPiece
import proofs.«170671_j78400333021343_2_alg».proof.Proof.SpecArray

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Stages Cert.KernelIdeal.Layout WinAttn

/-- One entry of the body's value on blocks that are rows of whole arrays: the windowed attention of window `n`,
    when the token block's window `b` is the arrays' window `n`, the staged matrices and bias are the arrays, and
    row `b` of the loaded mask rows is the mask of window `n`. -/
theorem block_entry (X0 : FVec Ideal S32x49x256 .f32) (X1 X2 X3 X4 : FVec Ideal S256x256 .f32) (X5 : FVec Ideal S8x49x49 .f32)
    (R : FVec Ideal S32x49x49 .f32)
    (A0 : FVec Ideal S4096x49x256 .f32) (A1 : FVec Ideal S64x49x49 .f32) (A2 A3 A4 A5 : FVec Ideal S256x256 .f32)
    (A9 : FVec Ideal S8x49x49 .f32) (n : Fin 4096) (b : Fin 32) (l : Fin 49) (e : Fin 256)
    (h0 : ∀ l c, X0 (ix3 b l c) = A0 (ix3 n l c))
    (h1 : X1 = A2) (h2 : X2 = A3) (h3 : X3 = A4) (h4 : X4 = A5) (h5 : X5 = A9)
    (hR : ∀ q k, R (ix3 b q k) = A1 (ix3 (maskOf n) q k)) :
    k0_pay1 (F := Ideal) (k0_pay2 X4) (k0_pay4 X0 X3) (k0_pay5 X0 X1 X2) R X5 (ix3 b l e)
      = attnArray A0 A1 A2 A3 A4 A5 A9 (ix3 n l e) := by
  subst h1 h2 h3 h4 h5
  rw [payload_window, attnArray_apply]
  have e0 : (fun l c => X0 (ix3 b l c)) = fun l c => A0 (ix3 n l c) := funext fun l => funext fun c => h0 l c
  have eR : (fun q k => R (ix3 b q k)) = fun q k => A1 (ix3 (maskOf n) q k) := funext fun q => funext fun k => hR q k
  rw [e0, eR]

variable (m : (ℓ : Loc nD τ sig) → Buf (Elt Ideal) ℓ) (ρ : Dev nD → PrngReg)

/-- The printed index maps over the grid: the token and result windows are at block `t`, the others at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The token block at point `t`: window `b` of it is window `32 t + b` of the tokens. -/
theorem tokens_blk (c : Dev nD) (t : Fin cfg0.N) (b : Fin 32) (n : Fin 4096) (hn : n.val = t.val * 32 + b.val) (l : Fin 49) (cc : Fin 256) :
    iblk m c 0 t (ix3 b l cc) = V m c main_arg0 (ix3 n l cc) := by
  obtain ⟨f0, f1, f2, -⟩ := idx_facts t
  show V m c main_arg0 (((cfg0.win 0).blk t).view.emb (ix3 b l cc)) = V m c main_arg0 (ix3 n l cc)
  refine congrArg (V m c main_arg0) (funext fun a => Fin.ext ?_)
  match a with
  | ⟨0, _⟩ => show win0_0.index t (0 : Fin 3) * 32 + 1 * b.val = n.val; omega
  | ⟨1, _⟩ => show win0_0.index t (1 : Fin 3) * 49 + 1 * l.val = l.val; omega
  | ⟨2, _⟩ => show win0_0.index t (2 : Fin 3) * 256 + 1 * cc.val = cc.val; omega

/-- A matrix staged whole is the matrix. -/
theorem wq_blk (c : Dev nD) (t : Fin cfg0.N) : iblk m c 1 t = V m c main_arg2 := by
  obtain ⟨-, -, -, f0, f1, -⟩ := idx_facts t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem wk_blk (c : Dev nD) (t : Fin cfg0.N) : iblk m c 2 t = V m c main_arg3 := by
  obtain ⟨-, -, -, -, -, f0, f1, -⟩ := idx_facts t
  funext y
  show V m c main_arg3 (((cfg0.win 2).blk t).view.emb y) = V m c main_arg3 y
  refine congrArg (V m c main_arg3) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem wv_blk (c : Dev nD) (t : Fin cfg0.N) : iblk m c 3 t = V m c main_arg4 := by
  obtain ⟨-, -, -, -, -, -, -, f0, f1, -⟩ := idx_facts t
  funext y
  show V m c main_arg4 (((cfg0.win 3).blk t).view.emb y) = V m c main_arg4 y
  refine congrArg (V m c main_arg4) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem wo_blk (c : Dev nD) (t : Fin cfg0.N) : iblk m c 4 t = V m c main_arg5 := by
  obtain ⟨-, -, -, -, -, -, -, -, -, f0, f1, -⟩ := idx_facts t
  funext y
  show V m c main_arg5 (((cfg0.win 4).blk t).view.emb y) = V m c main_arg5 y
  refine congrArg (V m c main_arg5) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The bias staged whole is the bias the host gathered. -/
theorem bias_blk (c : Dev nD) (t : Fin cfg0.N) : iblk m c 5 t = V m c main_v9 := by
  obtain ⟨-, -, -, -, -, -, -, -, -, -, -, f0, f1, f2, -⟩ := idx_facts t
  funext y
  show V m c main_v9 (((cfg0.win 5).blk t).view.emb y) = V m c main_v9 y
  refine congrArg (V m c main_v9) (funext fun a => Fin.ext ?_)
  match a with
  | ⟨0, _⟩ => show win0_5.index t (0 : Fin 3) * 8 + 1 * (y 0).val = (y 0).val; omega
  | ⟨1, _⟩ => show win0_5.index t (1 : Fin 3) * 49 + 1 * (y 1).val = (y 1).val; omega
  | ⟨2, _⟩ => show win0_5.index t (2 : Fin 3) * 49 + 1 * (y 2).val = (y 2).val; omega

/-- The mask staged whole is the mask. -/
theorem mask_blk (c : Dev nD) (t : Fin cfg0.N) : iblk m c 6 t = V m c main_arg1 := by
  obtain ⟨-, -, -, -, -, -, -, -, -, -, -, -, -, -, f0, f1, f2, -⟩ := idx_facts t
  funext y
  show V m c main_arg1 (((cfg0.win 6).blk t).view.emb y) = V m c main_arg1 y
  refine congrArg (V m c main_arg1) (funext fun a => Fin.ext ?_)
  match a with
  | ⟨0, _⟩ => show win0_6.index t (0 : Fin 3) * 64 + 1 * (y 0).val = (y 0).val; omega
  | ⟨1, _⟩ => show win0_6.index t (1 : Fin 3) * 49 + 1 * (y 1).val = (y 1).val; omega
  | ⟨2, _⟩ => show win0_6.index t (2 : Fin 3) * 49 + 1 * (y 2).val = (y 2).val; omega

/-- The result as one function of the arrays the region finds. -/
abbrev resultOf (c : Dev nD) : S4096x49x256.Idx → EReal :=
  attnArray (V m c main_arg0) (V m c main_arg1) (V m c main_arg2) (V m c main_arg3) (V m c main_arg4) (V m c main_arg5) (V m c main_v9)

/-- WHAT POINT `t` WRITES BACK is block `t` of the whole-array function. -/
theorem flushed_eq (c : Dev nD) (t : Fin cfg0.N) :
    (dats m 0 c).flushed 7 t = ((cfg0.win 7).blk t).view.read (Elt Ideal) (resultOf m c) := by
  rw [Value.flushed7_A, Piece.out_eq]
  funext j
  obtain ⟨b, l, e, rfl⟩ : ∃ (b : Fin 32) (l : Fin 49) (e : Fin 256), j = ix3 b l e := ⟨j 0, j 1, j 2, eq_ix3 j⟩
  have hb := b.isLt
  have ht : t.val < 128 := t.isLt
  obtain ⟨-, -, -, -, -, -, -, -, -, -, -, -, -, -, -, -, -, g0, g1, g2⟩ := idx_facts t
  let n : Fin 4096 := ⟨t.val * 32 + b.val, by omega⟩
  show k0_pay1 (F := Ideal) (k0_pay2 (iblk m c 4 t)) (k0_pay4 (iblk m c 0 t) (iblk m c 3 t)) (k0_pay5 (iblk m c 0 t) (iblk m c 1 t) (iblk m c 2 t))
      (Piece.maskRows (grid0.coords t) (iblk m c 6 t)) (iblk m c 5 t) (ix3 b l e)
    = resultOf m c (((cfg0.win 7).blk t).view.emb (ix3 b l e))
  refine (block_entry (iblk m c 0 t) (iblk m c 1 t) (iblk m c 2 t) (iblk m c 3 t) (iblk m c 4 t) (iblk m c 5 t)
    (Piece.maskRows (grid0.coords t) (iblk m c 6 t))
    (V m c main_arg0) (V m c main_arg1) (V m c main_arg2) (V m c main_arg3) (V m c main_arg4) (V m c main_arg5) (V m c main_v9)
    n b l e (fun l cc => tokens_blk m c t b n rfl l cc) (wq_blk m c t) (wk_blk m c t) (wv_blk m c t) (wo_blk m c t) (bias_blk m c t)
    (fun q k => ?_)).trans ?_
  · refine (Piece.maskRows_apply t (iblk m c 6 t) b q k (maskOf n) ?_).trans (congrFun (mask_blk m c t) _)
    show (t.val * 32 + b.val) % 64 = (t.val % 2) * 32 + b.val
    omega
  · refine congrArg (resultOf m c) (funext fun a => Fin.ext ?_)
    match a with
    | ⟨0, _⟩ => show t.val * 32 + b.val = win0_7.index t (0 : Fin 3) * 32 + 1 * b.val; omega
    | ⟨1, _⟩ => show l.val = win0_7.index t (1 : Fin 3) * 49 + 1 * l.val; omega
    | ⟨2, _⟩ => show e.val = win0_7.index t (2 : Fin 3) * 256 + 1 * e.val; omega

/-- An index of the result is in point `t`'s block iff each coordinate is in the block's range on its axis. -/
theorem mem_blk (t : Fin cfg0.N) (i : S4096x49x256.Idx) :
    i ∈ ((cfg0.win 7).blk t).view.set ↔ ∀ a : Fin 3, win0_7.index t a * S32x49x256.size a ≤ (i a).val ∧ (i a).val < win0_7.index t a * S32x49x256.size a + S32x49x256.size a := by
  show i ∈ ((View.whole main_v10).slice (win0_7.rect t)).set ↔ _
  rw [View.set_slice_whole, Rect.mem_set_unit]
  exact Iff.rfl

/-- THE COVER: window `n` of the result is in the block of point `n / 32`. -/
theorem covered (i : S4096x49x256.Idx) : ∃ t : Fin cfg0.N, (cfg0.win 7).flush t = true ∧ i ∈ ((cfg0.win 7).blk t).view.set := by
  have hi0 : (i 0).val < 4096 := (i 0).isLt
  have hi1 : (i 1).val < 49 := (i 1).isLt
  have hi2 : (i 2).val < 256 := (i 2).isLt
  let t : Fin cfg0.N := ⟨(i 0).val / 32, by show (i 0).val / 32 < 128; omega⟩
  obtain ⟨-, -, -, -, -, -, -, -, -, -, -, -, -, -, -, -, -, g0, g1, g2⟩ := idx_facts t
  have ht : t.val = (i 0).val / 32 := rfl
  refine ⟨t, flush0_7 t, ?_⟩
  rw [mem_blk]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 49 ≤ (i 1).val ∧ (i 1).val < win0_7.index t (1 : Fin 3) * 49 + 49; omega
  | ⟨2, _⟩ => show win0_7.index t (2 : Fin 3) * 256 ≤ (i 2).val ∧ (i 2).val < win0_7.index t (2 : Fin 3) * 256 + 256; omega

/-- THE ARRAY after the run. -/
theorem final (c : Dev nD) : (dats m 0 c).arrAt 7 cfg0.N = resultOf m c :=
  (dats m 0 c).arrAt_eq_of_cover 7 (resultOf m c) (fun t _ => flushed_eq m c t) covered

/-- The kernel's run: the result array ends at the whole-array function of the arrays the region found, the arguments
    unchanged. -/
theorem run : θ_run defs (onTc (τ := τ) (main (F := Ideal))) ⟨m, fun _ => 0, ρ⟩ fun r => ∀ c : Dev nD,
      r.2.mem ((c : Thread nD τ).loc main_v10) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefIsSpec.lean ====
/-
  The reference computes the same windowed attention.

  The reference projects all 4096 windows at once, splits the channels into heads, moves the heads before the
  tokens, multiplies queries by keys per (window, head), adds the gathered position bias and — after viewing
  the 4096 windows as 64 images of 64 — the mask of the window within its image, takes a softmax along each
  row (maximum, shift, exponential, sum, quotient), multiplies by the values, puts the heads back side by side
  and projects by the output weights. Read at an index, stage by stage, this is the windowed attention of
  window `n` with the mask of window `n mod 64`.
-/
import proofs.«170671_j78400333021343_2_alg».proof.Proof.Gen.ReferenceIdeal.Read
import proofs.«170671_j78400333021343_2_alg».proof.Proof.SpecArray
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx WinAttn

/-- Two index functions agree coordinate by coordinate (each coordinate by computation). -/
macro "idx2" : tactic => `(tactic| (funext a; apply Fin.ext; match a with | ⟨0, _⟩ => rfl | ⟨1, _⟩ => rfl))
macro "idx3" : tactic => `(tactic| (funext a; apply Fin.ext; match a with | ⟨0, _⟩ => rfl | ⟨1, _⟩ => rfl | ⟨2, _⟩ => rfl))
macro "idx4" : tactic => `(tactic| (funext a; apply Fin.ext; match a with | ⟨0, _⟩ => rfl | ⟨1, _⟩ => rfl | ⟨2, _⟩ => rfl | ⟨3, _⟩ => rfl))

/-- The reference's queries: a product with the weights, the channels split into heads, the heads moved before the tokens. -/
theorem queries_read (x0 : (⟨S4096x49x256, .f32⟩ : BufTy).Contents (Elt Ideal)) (x2 : (⟨S256x256, .f32⟩ : BufTy).Contents (Elt Ideal)) (n : Fin 4096) (h : Fin 8) (l : Fin 49) (d : Fin 32) :
    val_main_v2 (F := Ideal) x0 x2 (ix4 n h l d) = proj (fun l c => x0 (ix3 n l c)) (fun a e => x2 (ix2 a e)) l h d := by
  have hn := n.isLt; have hl := l.isLt; have hh := h.isLt; have hd := d.isLt
  have e1 : idx_main_v2 (ix4 n h l d) = ix4 n l h d := by idx4
  have e2 : idx_main_v1 (ix4 n l h d) = ix3 n l (chan h d) := by
    funext a; apply Fin.ext
    match a with
    | ⟨0, _⟩ => show (((n.val * 49 + l.val) * 8 + h.val) * 32 + d.val) / 12544 = n.val; omega
    | ⟨1, _⟩ => show (((n.val * 49 + l.val) * 8 + h.val) * 32 + d.val) / 256 % 49 = l.val; omega
    | ⟨2, _⟩ => show (((n.val * 49 + l.val) * 8 + h.val) * 32 + d.val) % 256 = h.val * 32 + d.val; omega
  rw [val_main_v2_apply, e1, val_main_v1_apply, e2, val_main_v0_apply]
  unfold proj
  refine Finset.sum_congr rfl fun k _ => ?_
  have e3 : lidx_main_v0 (ix3 n l (chan h d)) k = ix3 n l k := by idx3
  have e4 : ridx_main_v0 (ix3 n l (chan h d)) k = ix2 k (chan h d) := by idx2
  rw [e3, e4]

/-- The reference's keys: a product with the weights, the channels split into heads, the heads moved before the tokens. -/
theorem keys_read (x0 : (⟨S4096x49x256, .f32⟩ : BufTy).Contents (Elt Ideal)) (x3 : (⟨S256x256, .f32⟩ : BufTy).Contents (Elt Ideal)) (n : Fin 4096) (h : Fin 8) (l : Fin 49) (d : Fin 32) :
    val_main_v5 (F := Ideal) x0 x3 (ix4 n h l d) = proj (fun l c => x0 (ix3 n l c)) (fun a e => x3 (ix2 a e)) l h d := by
  have hn := n.isLt; have hl := l.isLt; have hh := h.isLt; have hd := d.isLt
  have e1 : idx_main_v5 (ix4 n h l d) = ix4 n l h d := by idx4
  have e2 : idx_main_v4 (ix4 n l h d) = ix3 n l (chan h d) := by
    funext a; apply Fin.ext
    match a with
    | ⟨0, _⟩ => show (((n.val * 49 + l.val) * 8 + h.val) * 32 + d.val) / 12544 = n.val; omega
    | ⟨1, _⟩ => show (((n.val * 49 + l.val) * 8 + h.val) * 32 + d.val) / 256 % 49 = l.val; omega
    | ⟨2, _⟩ => show (((n.val * 49 + l.val) * 8 + h.val) * 32 + d.val) % 256 = h.val * 32 + d.val; omega
  rw [val_main_v5_apply, e1, val_main_v4_apply, e2, val_main_v3_apply]
  unfold proj
  refine Finset.sum_congr rfl fun k _ => ?_
  have e3 : lidx_main_v3 (ix3 n l (chan h d)) k = ix3 n l k := by idx3
  have e4 : ridx_main_v3 (ix3 n l (chan h d)) k = ix2 k (chan h d) := by idx2
  rw [e3, e4]

/-- The reference's values: a product with the weights, the channels split into heads, the heads moved before the tokens. -/
theorem values_read (x0 : (⟨S4096x49x256, .f32⟩ : BufTy).Contents (Elt Ideal)) (x4 : (⟨S256x256, .f32⟩ : BufTy).Contents (Elt Ideal)) (n : Fin 4096) (h : Fin 8) (l : Fin 49) (d : Fin 32) :
    val_main_v8 (F := Ideal) x0 x4 (ix4 n h l d) = proj (fun l c => x0 (ix3 n l c)) (fun a e => x4 (ix2 a e)) l h d := by
  have hn := n.isLt; have hl := l.isLt; have hh := h.isLt; have hd := d.isLt
  have e1 : idx_main_v8 (ix4 n h l d) = ix4 n l h d := by idx4
  have e2 : idx_main_v7 (ix4 n l h d) = ix3 n l (chan h d) := by
    funext a; apply Fin.ext
    match a with
    | ⟨0, _⟩ => show (((n.val * 49 + l.val) * 8 + h.val) * 32 + d.val) / 12544 = n.val; omega
    | ⟨1, _⟩ => show (((n.val * 49 + l.val) * 8 + h.val) * 32 + d.val) / 256 % 49 = l.val; omega
    | ⟨2, _⟩ => show (((n.val * 49 + l.val) * 8 + h.val) * 32 + d.val) % 256 = h.val * 32 + d.val; omega
  rw [val_main_v8_apply, e1, val_main_v7_apply, e2, val_main_v6_apply]
  unfold proj
  refine Finset.sum_congr rfl fun k _ => ?_
  have e3 : lidx_main_v6 (ix3 n l (chan h d)) k = ix3 n l k := by idx3
  have e4 : ridx_main_v6 (ix3 n l (chan h d)) k = ix2 k (chan h d) := by idx2
  rw [e3, e4]

/-- Queries times keys of one (window, head). -/
theorem qk_read (x0 : (⟨S4096x49x256, .f32⟩ : BufTy).Contents (Elt Ideal)) (x2 : (⟨S256x256, .f32⟩ : BufTy).Contents (Elt Ideal)) (x3 : (⟨S256x256, .f32⟩ : BufTy).Contents (Elt Ideal)) (n : Fin 4096) (h : Fin 8) (q k : Fin 49) :
    val_main_v9 (F := Ideal) x0 x2 x3 (ix4 n h q k)
      = ∑ d : Fin 32, proj (fun l c => x0 (ix3 n l c)) (fun a e => x2 (ix2 a e)) q h d * proj (fun l c => x0 (ix3 n l c)) (fun a e => x3 (ix2 a e)) k h d := by
  rw [val_main_v9_apply]
  refine Finset.sum_congr rfl fun d _ => ?_
  have e1 : lidx_main_v9 (ix4 n h q k) d = ix4 n h q d := by idx4
  have e2 : ridx_main_v9 (ix4 n h q k) d = ix4 n h k d := by idx4
  rw [e1, e2, queries_read, keys_read]

/-- The gathered bias repeated over the windows. -/
theorem bias_read (x6 : (⟨S169x8, .f32⟩ : BufTy).Contents (Elt Ideal)) (x7 : (⟨S49x49, .i32⟩ : BufTy).Contents (Elt Ideal)) (n : Fin 4096) (h : Fin 8) (q k : Fin 49) :
    val_main_v21 (F := Ideal) x6 x7 (ix4 n h q k) = val_main_v19 (F := Ideal) x6 x7 (ix3 h q k) := by
  have e1 : idx_main_v20 (idx_main_v21 (ix4 n h q k)) = ix3 h q k := by idx3
  rw [val_main_v21_apply, val_main_v20_apply, e1]

/-- The scores with bias and mask: window `n` is window `n mod 64` of image `n / 64`, and takes that window's mask. -/
theorem score_read (x0 : (⟨S4096x49x256, .f32⟩ : BufTy).Contents (Elt Ideal)) (x1 : (⟨S64x49x49, .f32⟩ : BufTy).Contents (Elt Ideal)) (x2 : (⟨S256x256, .f32⟩ : BufTy).Contents (Elt Ideal)) (x3 : (⟨S256x256, .f32⟩ : BufTy).Contents (Elt Ideal)) (x6 : (⟨S169x8, .f32⟩ : BufTy).Contents (Elt Ideal)) (x7 : (⟨S49x49, .i32⟩ : BufTy).Contents (Elt Ideal)) (n : Fin 4096) (h : Fin 8) (q k : Fin 49) :
    val_main_v27 (F := Ideal) x0 x1 x2 x3 x6 x7 (ix4 n h q k) = score (fun l c => x0 (ix3 n l c)) (fun a e => x2 (ix2 a e)) (fun a e => x3 (ix2 a e)) (fun h q k => val_main_v19 (F := Ideal) x6 x7 (ix3 h q k)) (fun q k => x1 (ix3 (maskOf n) q k)) h q k := by
  have hn := n.isLt; have hh := h.isLt; have hq := q.isLt; have hk := k.isLt
  have t0 : (((n.val * 8 + h.val) * 49 + q.val) * 49 + k.val) / 1229312 = n.val / 64 := by omega
  have t1 : (((n.val * 8 + h.val) * 49 + q.val) * 49 + k.val) / 19208 % 64 = n.val % 64 := by omega
  have t2 : (((n.val * 8 + h.val) * 49 + q.val) * 49 + k.val) / 2401 % 8 = h.val := by omega
  have t3 : (((n.val * 8 + h.val) * 49 + q.val) * 49 + k.val) / 49 % 49 = q.val := by omega
  have t4 : (((n.val * 8 + h.val) * 49 + q.val) * 49 + k.val) % 49 = k.val := by omega
  have e1 : idx_main_v23 (idx_main_v27 (ix4 n h q k)) = ix4 n h q k := by
    funext a; apply Fin.ext
    match a with
    | ⟨0, _⟩ =>
      show ((((((((n.val * 8 + h.val) * 49 + q.val) * 49 + k.val) / 1229312) * 64 + (((n.val * 8 + h.val) * 49 + q.val) * 49 + k.val) / 19208 % 64) * 8 + (((n.val * 8 + h.val) * 49 + q.val) * 49 + k.val) / 2401 % 8) * 49 + (((n.val * 8 + h.val) * 49 + q.val) * 49 + k.val) / 49 % 49) * 49 + (((n.val * 8 + h.val) * 49 + q.val) * 49 + k.val) % 49) / 19208 = n.val
      rw [t0, t1, t2, t3, t4]; omega
    | ⟨1, _⟩ =>
      show ((((((((n.val * 8 + h.val) * 49 + q.val) * 49 + k.val) / 1229312) * 64 + (((n.val * 8 + h.val) * 49 + q.val) * 49 + k.val) / 19208 % 64) * 8 + (((n.val * 8 + h.val) * 49 + q.val) * 49 + k.val) / 2401 % 8) * 49 + (((n.val * 8 + h.val) * 49 + q.val) * 49 + k.val) / 49 % 49) * 49 + (((n.val * 8 + h.val) * 49 + q.val) * 49 + k.val) % 49) / 2401 % 8 = h.val
      rw [t0, t1, t2, t3, t4]; omega
    | ⟨2, _⟩ =>
      show ((((((((n.val * 8 + h.val) * 49 + q.val) * 49 + k.val) / 1229312) * 64 + (((n.val * 8 + h.val) * 49 + q.val) * 49 + k.val) / 19208 % 64) * 8 + (((n.val * 8 + h.val) * 49 + q.val) * 49 + k.val) / 2401 % 8) * 49 + (((n.val * 8 + h.val) * 49 + q.val) * 49 + k.val) / 49 % 49) * 49 + (((n.val * 8 + h.val) * 49 + q.val) * 49 + k.val) % 49) / 49 % 49 = q.val
      rw [t0, t1, t2, t3, t4]; omega
    | ⟨3, _⟩ =>
      show ((((((((n.val * 8 + h.val) * 49 + q.val) * 49 + k.val) / 1229312) * 64 + (((n.val * 8 + h.val) * 49 + q.val) * 49 + k.val) / 19208 % 64) * 8 + (((n.val * 8 + h.val) * 49 + q.val) * 49 + k.val) / 2401 % 8) * 49 + (((n.val * 8 + h.val) * 49 + q.val) * 49 + k.val) / 49 % 49) * 49 + (((n.val * 8 + h.val) * 49 + q.val) * 49 + k.val) % 49) % 49 = k.val
      rw [t0, t1, t2, t3, t4]; omega
  have e2 : idx_main_v24 (idx_main_v25 (idx_main_v27 (ix4 n h q k))) = ix3 (maskOf n) q k := by
    funext a; apply Fin.ext
    match a with
    | ⟨0, _⟩ => show (((n.val * 8 + h.val) * 49 + q.val) * 49 + k.val) / 19208 % 64 = n.val % 64; exact t1
    | ⟨1, _⟩ => show (((n.val * 8 + h.val) * 49 + q.val) * 49 + k.val) / 49 % 49 = q.val; exact t3
    | ⟨2, _⟩ => show (((n.val * 8 + h.val) * 49 + q.val) * 49 + k.val) % 49 = k.val; exact t4
  rw [val_main_v27_apply, val_main_v26_apply, val_main_v23_apply, e1, val_main_v25_apply, val_main_v24_apply, e2,
    val_main_v22_apply, qk_read, bias_read]
  rfl

/-- The reduced row index with a key put back. -/
theorem lift_row (hred : S4096x8x49x49.Reduces [3] S4096x8x49) (n : Fin 4096) (h : Fin 8) (q : Fin 49) (k : Fin (S4096x8x49x49.size 3)) :
    hred.lift (ix3 n h q) k = ix4 n h q (⟨k.val, k.isLt⟩ : Fin 49) := by
  funext c; apply Fin.ext
  fin_cases c <;> rfl

/-- A row's maximum: the reduce from −∞, and the extra maximum with −∞ the reference takes, change nothing. -/
theorem rowmax_read (x0 : (⟨S4096x49x256, .f32⟩ : BufTy).Contents (Elt Ideal)) (x1 : (⟨S64x49x49, .f32⟩ : BufTy).Contents (Elt Ideal)) (x2 : (⟨S256x256, .f32⟩ : BufTy).Contents (Elt Ideal)) (x3 : (⟨S256x256, .f32⟩ : BufTy).Contents (Elt Ideal)) (x6 : (⟨S169x8, .f32⟩ : BufTy).Contents (Elt Ideal)) (x7 : (⟨S49x49, .i32⟩ : BufTy).Contents (Elt Ideal)) (n : Fin 4096) (h : Fin 8) (q : Fin 49) :
    val_main_v30 (F := Ideal) x0 x1 x2 x3 x6 x7 (ix3 n h q) = rowMax (fun k' => val_main_v27 (F := Ideal) x0 x1 x2 x3 x6 x7 (ix4 n h q k')) := by
  rw [val_main_v30_apply]
  have e29 : val_main_v29 (F := Ideal) (ix3 n h q) = negInf := by rw [val_main_v29_apply]; rfl
  show max (val_main_v29 (F := Ideal) (ix3 n h q)) (val_main_v28 (F := Ideal) x0 x1 x2 x3 x6 x7 (ix3 n h q)) = _
  rw [e29, max_negInf]
  unfold val_main_v28
  have hred : S4096x8x49x49.Reduces [3] S4096x8x49 := by decide
  rw [Host.reduce_eq_fold_single FloatOps.maximumf _ _ reducesTo_S4096x8x49x49_S4096x8x49_d3 hred h_S_]
  have hf : (val_main_v27 (F := Ideal) x0 x1 x2 x3 x6 x7 ∘ hred.lift (ix3 n h q)) = fun k : Fin 49 => val_main_v27 (F := Ideal) x0 x1 x2 x3 x6 x7 (ix4 n h q k) :=
    funext fun k => congrArg (val_main_v27 (F := Ideal) x0 x1 x2 x3 x6 x7) (lift_row hred n h q k)
  exact congrArg (fun f => Finset.fold max negInf f (Finset.univ : Finset (Fin 49))) hf

/-- The shifted exponentials. -/
theorem expo_read (x0 : (⟨S4096x49x256, .f32⟩ : BufTy).Contents (Elt Ideal)) (x1 : (⟨S64x49x49, .f32⟩ : BufTy).Contents (Elt Ideal)) (x2 : (⟨S256x256, .f32⟩ : BufTy).Contents (Elt Ideal)) (x3 : (⟨S256x256, .f32⟩ : BufTy).Contents (Elt Ideal)) (x6 : (⟨S169x8, .f32⟩ : BufTy).Contents (Elt Ideal)) (x7 : (⟨S49x49, .i32⟩ : BufTy).Contents (Elt Ideal)) (n : Fin 4096) (h : Fin 8) (q k : Fin 49) :
    val_main_v34 (F := Ideal) x0 x1 x2 x3 x6 x7 (ix4 n h q k) = expo (fun k' => val_main_v27 (F := Ideal) x0 x1 x2 x3 x6 x7 (ix4 n h q k')) k := by
  have e1 : idx_main_v31 (idx_main_v32 (ix4 n h q k)) = ix3 n h q := by idx3
  rw [val_main_v34_apply, val_main_v33_apply, val_main_v32_apply, val_main_v31_apply, e1, rowmax_read]
  rfl

/-- A row's sum of them. -/
theorem sum_read (x0 : (⟨S4096x49x256, .f32⟩ : BufTy).Contents (Elt Ideal)) (x1 : (⟨S64x49x49, .f32⟩ : BufTy).Contents (Elt Ideal)) (x2 : (⟨S256x256, .f32⟩ : BufTy).Contents (Elt Ideal)) (x3 : (⟨S256x256, .f32⟩ : BufTy).Contents (Elt Ideal)) (x6 : (⟨S169x8, .f32⟩ : BufTy).Contents (Elt Ideal)) (x7 : (⟨S49x49, .i32⟩ : BufTy).Contents (Elt Ideal)) (n : Fin 4096) (h : Fin 8) (q : Fin 49) :
    val_main_v35 (F := Ideal) x0 x1 x2 x3 x6 x7 (ix3 n h q) = ∑ k : Fin 49, expo (fun k' => val_main_v27 (F := Ideal) x0 x1 x2 x3 x6 x7 (ix4 n h q k')) k := by
  rw [val_main_v35_apply]
  show Ideal.ofBits .f32 0x00000000#32 + _ = _
  rw [Ideal.ofBits_zero_f32, zero_add]
  refine Finset.sum_congr rfl fun k _ => ?_
  have e1 : idx_main_v35 (ix3 n h q) k = ix4 n h q k := by idx4
  rw [e1, expo_read]

/-- The softmax. -/
theorem attn_read (x0 : (⟨S4096x49x256, .f32⟩ : BufTy).Contents (Elt Ideal)) (x1 : (⟨S64x49x49, .f32⟩ : BufTy).Contents (Elt Ideal)) (x2 : (⟨S256x256, .f32⟩ : BufTy).Contents (Elt Ideal)) (x3 : (⟨S256x256, .f32⟩ : BufTy).Contents (Elt Ideal)) (x6 : (⟨S169x8, .f32⟩ : BufTy).Contents (Elt Ideal)) (x7 : (⟨S49x49, .i32⟩ : BufTy).Contents (Elt Ideal)) (n : Fin 4096) (h : Fin 8) (q k : Fin 49) :
    val_main_v38 (F := Ideal) x0 x1 x2 x3 x6 x7 (ix4 n h q k) = attn (fun k' => val_main_v27 (F := Ideal) x0 x1 x2 x3 x6 x7 (ix4 n h q k')) k := by
  have e1 : idx_main_v36 (idx_main_v37 (ix4 n h q k)) = ix3 n h q := by idx3
  rw [val_main_v38_apply, val_main_v37_apply, val_main_v36_apply, e1, sum_read, expo_read]
  rfl

/-- A head's output. -/
theorem headOut_read (x0 : (⟨S4096x49x256, .f32⟩ : BufTy).Contents (Elt Ideal)) (x1 : (⟨S64x49x49, .f32⟩ : BufTy).Contents (Elt Ideal)) (x2 : (⟨S256x256, .f32⟩ : BufTy).Contents (Elt Ideal)) (x3 : (⟨S256x256, .f32⟩ : BufTy).Contents (Elt Ideal)) (x4 : (⟨S256x256, .f32⟩ : BufTy).Contents (Elt Ideal)) (x6 : (⟨S169x8, .f32⟩ : BufTy).Contents (Elt Ideal)) (x7 : (⟨S49x49, .i32⟩ : BufTy).Contents (Elt Ideal)) (n : Fin 4096) (h : Fin 8) (q : Fin 49) (d : Fin 32) :
    val_main_v39 (F := Ideal) x0 x1 x2 x3 x4 x6 x7 (ix4 n h q d)
      = headOut (fun l c => x0 (ix3 n l c)) (fun a e => x2 (ix2 a e)) (fun a e => x3 (ix2 a e)) (fun a e => x4 (ix2 a e)) (fun h q k => val_main_v19 (F := Ideal) x6 x7 (ix3 h q k)) (fun q k => x1 (ix3 (maskOf n) q k)) q h d := by
  rw [val_main_v39_apply]
  unfold headOut
  refine Finset.sum_congr rfl fun k _ => ?_
  have e1 : lidx_main_v39 (ix4 n h q d) k = ix4 n h q k := by idx4
  have e2 : ridx_main_v39 (ix4 n h q d) k = ix4 n h k d := by idx4
  rw [e1, e2, attn_read, values_read]
  refine congrArg₂ (· * ·) ?_ rfl
  exact congrArg (fun s => attn s k) (funext fun k' => score_read x0 x1 x2 x3 x6 x7 n h q k')

/-- The reference's result at an index. -/
theorem out_read (x0 : (⟨S4096x49x256, .f32⟩ : BufTy).Contents (Elt Ideal)) (x1 : (⟨S64x49x49, .f32⟩ : BufTy).Contents (Elt Ideal)) (x2 : (⟨S256x256, .f32⟩ : BufTy).Contents (Elt Ideal)) (x3 : (⟨S256x256, .f32⟩ : BufTy).Contents (Elt Ideal)) (x4 : (⟨S256x256, .f32⟩ : BufTy).Contents (Elt Ideal)) (x5 : (⟨S256x256, .f32⟩ : BufTy).Contents (Elt Ideal)) (x6 : (⟨S169x8, .f32⟩ : BufTy).Contents (Elt Ideal)) (x7 : (⟨S49x49, .i32⟩ : BufTy).Contents (Elt Ideal)) (n : Fin 4096) (l : Fin 49) (e : Fin 256) :
    val_main_v42 (F := Ideal) x0 x1 x2 x3 x4 x5 x6 x7 (ix3 n l e)
      = window (fun l c => x0 (ix3 n l c)) (fun a e => x2 (ix2 a e)) (fun a e => x3 (ix2 a e)) (fun a e => x4 (ix2 a e)) (fun a e => x5 (ix2 a e)) (fun h q k => val_main_v19 (F := Ideal) x6 x7 (ix3 h q k)) (fun q k => x1 (ix3 (maskOf n) q k)) l e := by
  have hn := n.isLt; have hl := l.isLt
  rw [val_main_v42_apply]
  unfold window
  refine Finset.sum_congr rfl fun c _ => ?_
  have hc := c.isLt
  have e1 : lidx_main_v42 (ix3 n l e) c = ix3 n l c := by idx3
  have e2 : ridx_main_v42 (ix3 n l e) c = ix2 c e := by idx2
  have e3 : idx_main_v40 (idx_main_v41 (ix3 n l c)) = ix4 n (headOf c) l (laneOf c) := by
    funext a; apply Fin.ext
    match a with
    | ⟨0, _⟩ => show ((n.val * 49 + l.val) * 256 + c.val) / 12544 = n.val; omega
    | ⟨1, _⟩ => show ((n.val * 49 + l.val) * 256 + c.val) / 32 % 8 = c.val / 32; omega
    | ⟨2, _⟩ => show ((n.val * 49 + l.val) * 256 + c.val) / 256 % 49 = l.val; omega
    | ⟨3, _⟩ => show ((n.val * 49 + l.val) * 256 + c.val) % 32 = c.val % 32; omega
  rw [e1, e2, val_main_v41_apply, val_main_v40_apply, e3, headOut_read]

/-- THE REFERENCE IS THE SPECIFICATION: its result, as a function of its arguments, is the windowed attention array
    with the bias the program gathers. -/
theorem ref_eq (x0 : (⟨S4096x49x256, .f32⟩ : BufTy).Contents (Elt Ideal)) (x1 : (⟨S64x49x49, .f32⟩ : BufTy).Contents (Elt Ideal)) (x2 : (⟨S256x256, .f32⟩ : BufTy).Contents (Elt Ideal)) (x3 : (⟨S256x256, .f32⟩ : BufTy).Contents (Elt Ideal)) (x4 : (⟨S256x256, .f32⟩ : BufTy).Contents (Elt Ideal)) (x5 : (⟨S256x256, .f32⟩ : BufTy).Contents (Elt Ideal)) (x6 : (⟨S169x8, .f32⟩ : BufTy).Contents (Elt Ideal)) (x7 : (⟨S49x49, .i32⟩ : BufTy).Contents (Elt Ideal)) :
    val_main_v42 (F := Ideal) x0 x1 x2 x3 x4 x5 x6 x7 = attnArray x0 x1 x2 x3 x4 x5 (val_main_v19 (F := Ideal) x6 x7) := by
  funext i
  obtain ⟨n, l, e, rfl⟩ : ∃ (n : Fin 4096) (l : Fin 49) (e : Fin 256), i = ix3 n l e := ⟨i 0, i 1, i 2, eq_ix3 i⟩
  rw [out_read, attnArray_apply]

end Cert.ReferenceIdeal.RefValue

end
-- ==== Proof.HostBias.lean ====
/-
  The position bias both programs use.

  Before its kernel is launched the kernel program gathers the bias exactly as the reference does: the 49 × 49
  relative-position indices flattened, negative ones wrapped by 169, the 8 per-head entries of the table gathered
  for each, and the result viewed as [49, 49, 8] and transposed to [8, 49, 49]. The array the kernel's region finds
  is therefore the reference's bias stage applied to the same two arguments.
-/
import proofs.«170671_j78400333021343_2_alg».proof.Proof.Gen.KernelIdeal.Frame
import proofs.«170671_j78400333021343_2_alg».proof.Proof.Gen.ReferenceIdeal.Read
import Idealize.ShloMosaic.Lib.StableHlo.Run

set_option maxRecDepth 16384

noncomputable section

namespace Cert.Proof.Bias

open Idealize.ShloMosaic Idealize.ShloMosaic.TcCoe Idealize.SL.Sem Idealize.ShloMosaic.StableHlo

theorem bias_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v9 : Cert.KernelIdeal.S8x49x49.Idx → EReal)
      = Cert.ReferenceIdeal.Read.val_main_v19 (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  dsimp only [Cert.KernelIdeal.Gen.V, Cert.KernelIdeal.Gen.hostOps0]
  after_results
  rfl

end Cert.Proof.Bias

end
-- ==== Proof.lean ====
/-
  Windowed multi-head attention (49 tokens per window, 8 heads of 32 lanes, a gathered relative-position bias and a
  per-window mask) as one fused kernel over blocks of 32 windows, against the reference written with whole-array
  products, reshapes and a softmax.

  At the ideal values both compute, for every window, the same expression sum by sum (Proof/Spec.lean): the
  kernel's matrix products into a zero accumulator and the reference's general products are the same sums over the
  one contracted axis, the changes of float format are the identity, the kernel's reshapes and transposes only
  re-index, the kernel's row maximum and the reference's (which also takes a maximum with −∞) are one fold, and the
  mask rows a grid point loads are those of its windows modulo 64. No algebraic law is used, so the precondition
  (finite inputs) is never opened.

  The three frames are the generated ones (the reference's is its generated run with the result dropped); the ideal
  pass rewrote nothing, so `preserves` is `True`.
-/
import proofs.«170671_j78400333021343_2_alg».proof.Defs
import proofs.«170671_j78400333021343_2_alg».proof.Proof.Gen.Kernel
import proofs.«170671_j78400333021343_2_alg».proof.Proof.Gen.Kernel.Skeleton
import proofs.«170671_j78400333021343_2_alg».proof.Proof.Gen.Kernel.Launch
import proofs.«170671_j78400333021343_2_alg».proof.Proof.Gen.Kernel.Points
import proofs.«170671_j78400333021343_2_alg».proof.Proof.Gen.Kernel.Frame
import proofs.«170671_j78400333021343_2_alg».proof.Proof.Gen.KernelIdeal
import proofs.«170671_j78400333021343_2_alg».proof.Proof.Gen.KernelIdeal.Skeleton
import proofs.«170671_j78400333021343_2_alg».proof.Proof.Gen.KernelIdeal.Launch
import proofs.«170671_j78400333021343_2_alg».proof.Proof.Gen.KernelIdeal.Points
import proofs.«170671_j78400333021343_2_alg».proof.Proof.Gen.KernelIdeal.Frame
import proofs.«170671_j78400333021343_2_alg».proof.Proof.Gen.ReferenceIdeal
import proofs.«170671_j78400333021343_2_alg».proof.Proof.Gen.Pre_finite_inputs
import proofs.«170671_j78400333021343_2_alg».proof.Proof.Gen.KernelIdeal.Value
import proofs.«170671_j78400333021343_2_alg».proof.Proof.Gen.ReferenceIdeal.Run
import proofs.«170671_j78400333021343_2_alg».proof.Proof.Gen.ReferenceIdeal.Read
import proofs.«170671_j78400333021343_2_alg».proof.Proof.KBlocks
import proofs.«170671_j78400333021343_2_alg».proof.Proof.RefIsSpec
import proofs.«170671_j78400333021343_2_alg».proof.Proof.HostBias
import Idealize.ShloMosaic.Adequacy
import Idealize.ShloMosaic.Init

noncomputable section

namespace Cert.Proof

open Idealize.ShloMosaic Idealize.ShloMosaic.TcCoe Idealize.SL.Sem WinAttn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the windowed-attention array of the arguments: the kernel block by block, the reference
    stage by stage. -/
theorem algebraic : Cert.algebraic_KernelIdeal_ReferenceIdeal := by
  intro m ρ m' ρ' _ hagree
  refine ⟨fun c => attnArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (Cert.ReferenceIdeal.Read.val_main_v19 (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · refine (θ_run Cert.KernelIdeal.defs _ _).mono (fun r h c => ⟨(h c).1.trans ?_, (h c).2⟩) (Cert.KernelIdeal.Whole.run m ρ)
    show attnArray (Cert.KernelIdeal.Gen.V m c Cert.KernelIdeal.main_arg0) (Cert.KernelIdeal.Gen.V m c Cert.KernelIdeal.main_arg1)
      (Cert.KernelIdeal.Gen.V m c Cert.KernelIdeal.main_arg2) (Cert.KernelIdeal.Gen.V m c Cert.KernelIdeal.main_arg3)
      (Cert.KernelIdeal.Gen.V m c Cert.KernelIdeal.main_arg4) (Cert.KernelIdeal.Gen.V m c Cert.KernelIdeal.main_arg5)
      (Cert.KernelIdeal.Gen.V m c Cert.KernelIdeal.main_v9) = _
    rw [Cert.KernelIdeal.Gen.V_main_arg0 m c, Cert.KernelIdeal.Gen.V_main_arg1 m c, Cert.KernelIdeal.Gen.V_main_arg2 m c,
      Cert.KernelIdeal.Gen.V_main_arg3 m c, Cert.KernelIdeal.Gen.V_main_arg4 m c, Cert.KernelIdeal.Gen.V_main_arg5 m c,
      Cert.Proof.Bias.bias_eq m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, Cert.ReferenceIdeal.RefValue.ref_eq,
      (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
